-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x128 : Shape := ⟨3, ![64, 8192, 128]⟩
abbrev S_ : Shape := ⟨0, ![]⟩

class Facts : Prop where
  bcast_S_S64x8192x128 : S_.BroadcastsInDim S64x8192x128 (![] : Fin 0 → Fin S64x8192x128.rank)
  reducesTo_S64x8192x128_S_d0_1_2 : S64x8192x128.ReducesTo [0, 1, 2] S_
  h_S_ : 0 < S_.numel

variable [Facts]

def fn {F : FTy → Type} [FloatOps F] (main_arg0 : FVec F S64x8192x128 .f32) : IVec S_ 1 :=
  let main_v0 : FVec F S64x8192x128 .f32 := Host.absf main_arg0
  let main_cst : FVec F S_ .f32 := constant S_ .f32 0x7F800000#32
  let main_v1 : FVec F S64x8192x128 .f32 := broadcastInDim S64x8192x128 ![] bcast_S_S64x8192x128 main_cst
  let main_v2 : IVec S64x8192x128 1 := cmpf .olt main_v0 main_v1
  let main_c : IVec S_ 1 := constantI S_ 1 1#1
  let main_v3 : IVec S_ 1 := (fun x v => Host.reduce IntOp.andi x v reducesTo_S64x8192x128_S_d0_1_2 h_S_) main_v2 main_c
  main_v3
-- ==== Kernel.lean ====
abbrev S64x8192x128 : Shape := ⟨3, ![64, 8192, 128]⟩
abbrev S64x640 : Shape := ⟨2, ![64, 640]⟩
abbrev S8x2048x128 : Shape := ⟨3, ![8, 2048, 128]⟩
abbrev S8x640 : Shape := ⟨2, ![8, 640]⟩
abbrev S8x128 : Shape := ⟨2, ![8, 128]⟩

abbrev nBuf : Space → Nat
  | .hbm => 2
  | .vmem => 8
  | .smem => 0
  | _ => 0

abbrev bufTy : (tb : Table) → Fin (tcTables nBuf tb) → BufTy
  | .hbm, ⟨0, _⟩ => ⟨S64x8192x128, .f32⟩
  | .hbm, ⟨1, _⟩ => ⟨S64x640, .f32⟩
  | .local _ .vmem, ⟨0, _⟩ => ⟨S8x2048x128, .f32⟩
  | .local _ .vmem, ⟨1, _⟩ => ⟨S8x2048x128, .f32⟩
  | .local _ .vmem, ⟨2, _⟩ => ⟨S8x640, .f32⟩
  | .local _ .vmem, ⟨3, _⟩ => ⟨S8x640, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S64x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_22 : BitVec 32 := 0#32
  let v31 : BitVec 1 := Scalar.cmpi .ne v30 c0_i32_22
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x2048x128_S8x2048x128_0_0_0 : ∀ a, (![0, 0, 0] : Fin 3 → Nat) a + S8x2048x128.size a ≤ S8x2048x128.size a
  h_S8x2048x128 : 0 < S8x2048x128.numel
  reduces_S8x2048x128_S8x128 : S8x2048x128.Reduces [1] S8x128
  inb_S8x640_S8x128_0_0 : ∀ a, (![0, 0] : Fin 2 → Nat) a + S8x128.size a ≤ S8x640.size a
  inb_S8x640_S8x128_0_128 : ∀ a, (![0, 128] : Fin 2 → Nat) a + S8x128.size a ≤ S8x640.size a
  inb_S8x640_S8x128_0_256 : ∀ a, (![0, 256] : Fin 2 → Nat) a + S8x128.size a ≤ S8x640.size a
  inb_S8x640_S8x128_0_384 : ∀ a, (![0, 384] : Fin 2 → Nat) a + S8x128.size a ≤ S8x640.size a
  inb_S8x640_S8x128_0_512 : ∀ a, (![0, 512] : Fin 2 → Nat) a + S8x128.size a ≤ S8x640.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x128.size a ≤ S64x8192x128.size a
  hwx0_0 : ∀ i : grid0.Coords, EltTy.bits .f32 = 32 ∨ (Rect.block (s := S64x8192x128) S8x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x640.size a ≤ S64x640.size a
  hwx0_1 : ∀ i : grid0.Coords, EltTy.bits .f32 = 32 ∨ (Rect.block (s := S64x640) S8x640.size (cc0_transform_1 i) (hinb0_1 i)).WholeWords (EltTy.packing .f32)

variable [Facts₀]

abbrev win0_0 : Pipeline.Window sig grid0 :=
  Pipeline.Window.ofSpec (Memref.whole main_arg0) S8x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x640.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S64x8192x128 : Shape := ⟨3, ![64, 8192, 128]⟩
abbrev S_ : Shape := ⟨0, ![]⟩
abbrev S64x128 : Shape := ⟨2, ![64, 128]⟩
abbrev S64x1x128 : Shape := ⟨3, ![64, 1, 128]⟩
abbrev S64x640 : Shape := ⟨2, ![64, 640]⟩

abbrev nBuf : Space → Nat
  | .hbm => 37
  | .vmem => 0
  | .smem => 0
  | _ => 0

abbrev bufTy : (tb : Table) → Fin (tcTables nBuf tb) → BufTy
  | .hbm, ⟨0, _⟩ => ⟨S64x8192x128, .f32⟩
  | .hbm, ⟨1, _⟩ => ⟨S_, .f32⟩
  | .hbm, ⟨2, _⟩ => ⟨S64x128, .f32⟩
  | .hbm, ⟨3, _⟩ => ⟨S_, .f32⟩
  | .hbm, ⟨4, _⟩ => ⟨S64x128, .f32⟩
  | .hbm, ⟨5, _⟩ => ⟨S64x128, .f32⟩
  | .hbm, ⟨6, _⟩ => ⟨S_, .f32⟩
  | .hbm, ⟨7, _⟩ => ⟨S64x128, .f32⟩
  | .hbm, ⟨8, _⟩ => ⟨S_, .f32⟩
  | .hbm, ⟨9, _⟩ => ⟨S64x128, .f32⟩
  | .hbm, ⟨10, _⟩ => ⟨S_, .f32⟩
  | .hbm, ⟨11, _⟩ => ⟨S64x128, .f32⟩
  | .hbm, ⟨12, _⟩ => ⟨S_, .i32⟩
  | .hbm, ⟨13, _⟩ => ⟨S_, .f32⟩
  | .hbm, ⟨14, _⟩ => ⟨S64x128, .f32⟩
  | .hbm, ⟨15, _⟩ => ⟨S64x1x128, .f32⟩
  | .hbm, ⟨16, _⟩ => ⟨S_, .f32⟩
  | .hbm, ⟨17, _⟩ => ⟨S64x1x128, .f32⟩
  | .hbm, ⟨18, _⟩ => ⟨S64x1x128, .f32⟩
  | .hbm, ⟨19, _⟩ => ⟨S64x8192x128, .f32⟩
  | .hbm, ⟨20, _⟩ => ⟨S64x8192x128, .f32⟩
  | .hbm, ⟨21, _⟩ => ⟨S64x8192x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64x128, .f32⟩
  | .hbm, ⟨27, _⟩ => ⟨S64x128, .f32⟩
  | .hbm, ⟨28, _⟩ => ⟨S64x128, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S64x128, .f32⟩
  | .hbm, ⟨34, _⟩ => ⟨S64x128, .f32⟩
  | .hbm, ⟨35, _⟩ => ⟨S64x128, .f32⟩
  | .hbm, ⟨36, _⟩ => ⟨S64x640, .f32⟩
  | _, _ => ⟨S64x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_c : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_cst_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_cst_1 : Ref sig .tc := ⟨.hbm, 23, rfl⟩
abbrev main_call0_call0_v8 : Ref sig .tc := ⟨.hbm, 24, rfl⟩
abbrev main_call0_call0_cst_2 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_cst_3 : Ref sig .tc := ⟨.hbm, 29, rfl⟩
abbrev main_call0_call0_v12 : Ref sig .tc := ⟨.hbm, 30, rfl⟩
abbrev main_call0_call0_cst_4 : Ref sig .tc := ⟨.hbm, 31, rfl⟩
abbrev main_call0_call0_call0_v0 : Ref sig .tc := ⟨.hbm, 32, rfl⟩
abbrev main_call0_call0_call0_v1 : Ref sig .tc := ⟨.hbm, 33, rfl⟩
abbrev main_call0_v0 : Ref sig .tc := ⟨.hbm, 34, rfl⟩
abbrev main_v6 : Ref sig .tc := ⟨.hbm, 35, rfl⟩
abbrev main_v7 : Ref sig .tc := ⟨.hbm, 36, rfl⟩

abbrev nD : Nat := 1
abbrev τ : Topo := Topo.v7x

variable {F : FTy → Type} [FloatOps F]

class Facts₀ : Prop where
  reducesTo_S64x8192x128_S64x128_d1 : S64x8192x128.ReducesTo [1] S64x128
  h_S_ : 0 < S_.numel
  bcast_S_S64x128 : S_.BroadcastsInDim S64x128 (![] : Fin 0 → Fin S64x128.rank)
  bcast_S64x128_S64x1x128_0_2 : S64x128.BroadcastsInDim S64x1x128 (![0, 2] : Fin 2 → Fin S64x1x128.rank)
  bcast_S_S64x1x128 : S_.BroadcastsInDim S64x1x128 (![] : Fin 0 → Fin S64x1x128.rank)
  bcast_S64x1x128_S64x8192x128_0_1_2 : S64x1x128.BroadcastsInDim S64x8192x128 (![0, 1, 2] : Fin 3 → Fin S64x8192x128.rank)
  concatenates_S64x128_S64x128_S64x128_S64x128_S64x128_S64x640_d1 : Shape.Concatenates [S64x128, S64x128, S64x128, S64x128, S64x128] S64x640 1

variable [Facts₀]

class Facts : Prop extends Facts₀ where

variable [Facts]
-- ==== Proof.Pieces.lean ====
/-
  What one grid point's body leaves behind, as pure terms of what it found.

  The body keeps four 8 × 128 accumulators (running sum, running sum of squares, running maximum, running minimum)
  across the four points that sweep one group of eight rows. At the first point of a group it resets them (to 0, 0, −∞, +∞)
  and then folds its 8 × 2048 × 128 block in; at the later points it folds its block into what the point before left.
  At the last point it also writes the five statistics, side by side, into the 8 × 640 output block.
-/
import proofs.«172997_j57707180589696_2_alg».proof.Proof.Gen.KernelIdeal.Value
import Idealize.ShloMosaic.Lib.Pipeline.Value
import Idealize.ShloMosaic.Lib.ValueIdx

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The accumulators after a point -/

/-- First point of a group: the running sum is the block folded into the reset value. -/
theorem first_0 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : cond0_0 i) (hc1 : ¬cond0_1 i) (x0 : Vec F S8x2048x128 .f32) :
    sout0_A_0 c i a2 h2 a3 h3 a4 h4 a5 h5 a6 h6 a7 h7 hc0 hc1 x0 = k0_pay7 x0 (k0_pay3 (F := F)) := by
  unfold sout0_A_0
  rw [View.read_writes_eq_canon _ _ _ (scover0_A_0 c i a2 h2 a3 h3 a4 h4 a5 h5 a6 h6 a7 h7 hc0 hc1 x0)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S8x2048x128) hz3]

/-- A middle point: the block folded into what the point before left. -/
theorem middle_0 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : ¬cond0_0 i) (hc1 : ¬cond0_1 i) (x0 : Vec F S8x2048x128 .f32) (xs0 xs1 xs2 xs3 : Vec F S8x128 .f32) :
    sout0_B_0 c i a2 h2 a3 h3 a4 h4 a5 h5 a6 h6 a7 h7 hc0 hc1 x0 xs0 xs1 xs2 xs3 = k0_pay7 x0 xs0 := by
  unfold sout0_B_0
  rw [View.read_writes_eq_canon _ _ _ (scover0_B_0 c i a2 h2 a3 h3 a4 h4 a5 h5 a6 h6 a7 h7 hc0 hc1 x0 xs0 xs1 xs2 xs3)]
  unfold kernelRun0_B
  dsimp only
  rw [View.canon_unit_zero hz2]
  simp only [View.readAt_eq_ld, h2.read_unread, h4.read_unread, View.ld_unit_zero (S := S8x128) hz2, View.ld_unit_zero (S := S8x2048x128) hz3]

/-- The last point of a group folds its block in the same way. -/
theorem last_0 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : ¬cond0_0 i) (hc1 : cond0_1 i) (x0 : Vec F S8x2048x128 .f32) (xs0 xs1 xs2 xs3 : Vec F S8x128 .f32) :
    sout0_C_0 c i a2 h2 a3 h3 a4 h4 a5 h5 a6 h6 a7 h7 hc0 hc1 x0 xs0 xs1 xs2 xs3 = k0_pay7 x0 xs0 := by
  unfold sout0_C_0
  rw [View.read_writes_eq_canon _ _ _ (scover0_C_0 c i a2 h2 a3 h3 a4 h4 a5 h5 a6 h6 a7 h7 hc0 hc1 x0 xs0 xs1 xs2 xs3)]
  unfold kernelRun0_C
  dsimp only
  sl_unfold_words
  rw [View.canon_unit_zero hz2]
  simp only [View.readAt_eq_ld, h2.read_unread, h4.read_unread, View.ld_unit_zero (S := S8x128) hz2, View.ld_unit_zero (S := S8x2048x128) hz3]

/-- First point of a group: the running sum of squares is the block folded into the reset value. -/
theorem first_1 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : cond0_0 i) (hc1 : ¬cond0_1 i) (x0 : Vec F S8x2048x128 .f32) :
    sout0_A_1 c i a2 h2 a3 h3 a4 h4 a5 h5 a6 h6 a7 h7 hc0 hc1 x0 = k0_pay8 x0 (k0_pay4 (F := F)) := by
  unfold sout0_A_1
  rw [View.read_writes_eq_canon _ _ _ (scover0_A_1 c i a2 h2 a3 h3 a4 h4 a5 h5 a6 h6 a7 h7 hc0 hc1 x0)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S8x2048x128) hz3]

/-- A middle point: the block folded into what the point before left. -/
theorem middle_1 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : ¬cond0_0 i) (hc1 : ¬cond0_1 i) (x0 : Vec F S8x2048x128 .f32) (xs0 xs1 xs2 xs3 : Vec F S8x128 .f32) :
    sout0_B_1 c i a2 h2 a3 h3 a4 h4 a5 h5 a6 h6 a7 h7 hc0 hc1 x0 xs0 xs1 xs2 xs3 = k0_pay8 x0 xs1 := by
  unfold sout0_B_1
  rw [View.read_writes_eq_canon _ _ _ (scover0_B_1 c i a2 h2 a3 h3 a4 h4 a5 h5 a6 h6 a7 h7 hc0 hc1 x0 xs0 xs1 xs2 xs3)]
  unfold kernelRun0_B
  dsimp only
  rw [View.canon_unit_zero hz2]
  simp only [View.readAt_eq_ld, h2.read_unread, h5.read_unread, View.ld_unit_zero (S := S8x128) hz2, View.ld_unit_zero (S := S8x2048x128) hz3]

/-- The last point of a group folds its block in the same way. -/
theorem last_1 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : ¬cond0_0 i) (hc1 : cond0_1 i) (x0 : Vec F S8x2048x128 .f32) (xs0 xs1 xs2 xs3 : Vec F S8x128 .f32) :
    sout0_C_1 c i a2 h2 a3 h3 a4 h4 a5 h5 a6 h6 a7 h7 hc0 hc1 x0 xs0 xs1 xs2 xs3 = k0_pay8 x0 xs1 := by
  unfold sout0_C_1
  rw [View.read_writes_eq_canon _ _ _ (scover0_C_1 c i a2 h2 a3 h3 a4 h4 a5 h5 a6 h6 a7 h7 hc0 hc1 x0 xs0 xs1 xs2 xs3)]
  unfold kernelRun0_C
  dsimp only
  sl_unfold_words
  rw [View.canon_unit_zero hz2]
  simp only [View.readAt_eq_ld, h2.read_unread, h5.read_unread, View.ld_unit_zero (S := S8x128) hz2, View.ld_unit_zero (S := S8x2048x128) hz3]

/-- First point of a group: the running maximum is the block folded into the reset value. -/
theorem first_2 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : cond0_0 i) (hc1 : ¬cond0_1 i) (x0 : Vec F S8x2048x128 .f32) :
    sout0_A_2 c i a2 h2 a3 h3 a4 h4 a5 h5 a6 h6 a7 h7 hc0 hc1 x0 = k0_pay9 x0 (k0_pay5 (F := F)) := by
  unfold sout0_A_2
  rw [View.read_writes_eq_canon _ _ _ (scover0_A_2 c i a2 h2 a3 h3 a4 h4 a5 h5 a6 h6 a7 h7 hc0 hc1 x0)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S8x2048x128) hz3]

/-- A middle point: the block folded into what the point before left. -/
theorem middle_2 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : ¬cond0_0 i) (hc1 : ¬cond0_1 i) (x0 : Vec F S8x2048x128 .f32) (xs0 xs1 xs2 xs3 : Vec F S8x128 .f32) :
    sout0_B_2 c i a2 h2 a3 h3 a4 h4 a5 h5 a6 h6 a7 h7 hc0 hc1 x0 xs0 xs1 xs2 xs3 = k0_pay9 x0 xs2 := by
  unfold sout0_B_2
  rw [View.read_writes_eq_canon _ _ _ (scover0_B_2 c i a2 h2 a3 h3 a4 h4 a5 h5 a6 h6 a7 h7 hc0 hc1 x0 xs0 xs1 xs2 xs3)]
  unfold kernelRun0_B
  dsimp only
  rw [View.canon_unit_zero hz2]
  simp only [View.readAt_eq_ld, h2.read_unread, h6.read_unread, View.ld_unit_zero (S := S8x128) hz2, View.ld_unit_zero (S := S8x2048x128) hz3]

/-- The last point of a group folds its block in the same way. -/
theorem last_2 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : ¬cond0_0 i) (hc1 : cond0_1 i) (x0 : Vec F S8x2048x128 .f32) (xs0 xs1 xs2 xs3 : Vec F S8x128 .f32) :
    sout0_C_2 c i a2 h2 a3 h3 a4 h4 a5 h5 a6 h6 a7 h7 hc0 hc1 x0 xs0 xs1 xs2 xs3 = k0_pay9 x0 xs2 := by
  unfold sout0_C_2
  rw [View.read_writes_eq_canon _ _ _ (scover0_C_2 c i a2 h2 a3 h3 a4 h4 a5 h5 a6 h6 a7 h7 hc0 hc1 x0 xs0 xs1 xs2 xs3)]
  unfold kernelRun0_C
  dsimp only
  sl_unfold_words
  rw [View.canon_unit_zero hz2]
  simp only [View.readAt_eq_ld, h2.read_unread, h6.read_unread, View.ld_unit_zero (S := S8x128) hz2, View.ld_unit_zero (S := S8x2048x128) hz3]

/-- First point of a group: the running minimum is the block folded into the reset value. -/
theorem first_3 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : cond0_0 i) (hc1 : ¬cond0_1 i) (x0 : Vec F S8x2048x128 .f32) :
    sout0_A_3 c i a2 h2 a3 h3 a4 h4 a5 h5 a6 h6 a7 h7 hc0 hc1 x0 = k0_pay10 x0 (k0_pay6 (F := F)) := by
  unfold sout0_A_3
  rw [View.read_writes_eq_canon _ _ _ (scover0_A_3 c i a2 h2 a3 h3 a4 h4 a5 h5 a6 h6 a7 h7 hc0 hc1 x0)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S8x2048x128) hz3]

/-- A middle point: the block folded into what the point before left. -/
theorem middle_3 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : ¬cond0_0 i) (hc1 : ¬cond0_1 i) (x0 : Vec F S8x2048x128 .f32) (xs0 xs1 xs2 xs3 : Vec F S8x128 .f32) :
    sout0_B_3 c i a2 h2 a3 h3 a4 h4 a5 h5 a6 h6 a7 h7 hc0 hc1 x0 xs0 xs1 xs2 xs3 = k0_pay10 x0 xs3 := by
  unfold sout0_B_3
  rw [View.read_writes_eq_canon _ _ _ (scover0_B_3 c i a2 h2 a3 h3 a4 h4 a5 h5 a6 h6 a7 h7 hc0 hc1 x0 xs0 xs1 xs2 xs3)]
  unfold kernelRun0_B
  dsimp only
  rw [View.canon_unit_zero hz2]
  sl_unfold_words
  simp only [View.readAt_eq_ld, h2.read_unread, h7.read_unread, View.ld_unit_zero (S := S8x128) hz2, View.ld_unit_zero (S := S8x2048x128) hz3]

/-- The last point of a group folds its block in the same way. -/
theorem last_3 (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : ¬cond0_0 i) (hc1 : cond0_1 i) (x0 : Vec F S8x2048x128 .f32) (xs0 xs1 xs2 xs3 : Vec F S8x128 .f32) :
    sout0_C_3 c i a2 h2 a3 h3 a4 h4 a5 h5 a6 h6 a7 h7 hc0 hc1 x0 xs0 xs1 xs2 xs3 = k0_pay10 x0 xs3 := by
  unfold sout0_C_3
  rw [View.read_writes_eq_canon _ _ _ (scover0_C_3 c i a2 h2 a3 h3 a4 h4 a5 h5 a6 h6 a7 h7 hc0 hc1 x0 xs0 xs1 xs2 xs3)]
  unfold kernelRun0_C
  dsimp only
  sl_unfold_words
  rw [View.canon_unit_zero hz2]
  simp only [View.readAt_eq_ld, h2.read_unread, h7.read_unread, View.ld_unit_zero (S := S8x128) hz2, View.ld_unit_zero (S := S8x2048x128) hz3]

/-! ## The output block the last point of a group writes -/

/-- Five 8 × 128 pieces side by side, last written first: the deviation at columns 512…, the sum at 384…, the minimum
    at 256…, the maximum at 128…, the mean at 0…, each computed from the accumulators `s0 … s3` as the point leaves them. -/
def written (s0 s1 s2 s3 : Vec F S8x128 .f32) : List (View.Piece (Elt F) S8x640 .f32) :=
  [⟨Rect.unit ![0, 512] ![8, 128] inb_S8x640_S8x128_0_512, k0_pay2 s0 s1⟩,
   ⟨Rect.unit ![0, 384] ![8, 128] inb_S8x640_S8x128_0_384, s0⟩,
   ⟨Rect.unit ![0, 256] ![8, 128] inb_S8x640_S8x128_0_256, s3⟩,
   ⟨Rect.unit ![0, 128] ![8, 128] inb_S8x640_S8x128_0_128, s2⟩,
   ⟨Rect.unit ![0, 0] ![8, 128] inb_S8x640_S8x128_0_0, k0_pay1 s0⟩]

theorem last_out [∀ e, Nonempty (Elt F e)] (c : Dev nD) (i : grid0.Coords) (a2 : Memref sig .tc .vmem S8x2048x128 .f32) (h2 : a2.IsWhole) (a3 : Memref sig .tc .vmem S8x640 .f32) (h3 : a3.IsWhole)
    (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole)
    (hc0 : ¬cond0_0 i) (hc1 : cond0_1 i) (x0 : Vec F S8x2048x128 .f32) (xs0 xs1 xs2 xs3 : Vec F S8x128 .f32) :
    out0_C_1 c i a2 h2 a3 h3 a4 h4 a5 h5 a6 h6 a7 h7 hc0 hc1 x0 xs0 xs1 xs2 xs3
      = View.canon (written (k0_pay7 x0 xs0) (k0_pay8 x0 xs1) (k0_pay9 x0 xs2) (k0_pay10 x0 xs3)) := by
  unfold out0_C_1
  rw [View.read_writes_eq_canon _ _ _ (cover0_C_1 c i a2 h2 a3 h3 a4 h4 a5 h5 a6 h6 a7 h7 hc0 hc1 x0 xs0 xs1 xs2 xs3)]
  unfold kernelRun0_C
  dsimp only
  sl_unfold_words
  simp only [View.readCov_unit_zero (S := S8x128) _ hz2, View.readAt_eq_ld, h2.read_unread, h4.read_unread, h5.read_unread,
    h6.read_unread, h7.read_unread, View.ld_unit_zero (S := S8x128) hz2, View.ld_unit_zero (S := S8x2048x128) hz3]
  rfl

end Cert.KernelIdeal.Pieces

end
-- ==== Proof.Sweep.lean ====
/-
  The four points that sweep one group of eight rows, put together.

  Point t of the grid works on rows 8·(t / 4) … 8·(t / 4) + 7 and on positions 2048·(t % 4) … 2048·(t % 4) + 2047 of the
  pooled axis. The first point of a group (t % 4 = 0) starts the four accumulators from their reset values; each later
  point folds its block into what the point before left; the last one (t % 4 = 3) writes the output block from the
  accumulators it has just updated. So at the last point each accumulator is the fold of the group's four blocks, in order.
-/
import proofs.«172997_j57707180589696_2_alg».proof.Proof.Pieces

set_option maxRecDepth 16384

noncomputable section

namespace Cert.KernelIdeal.Sweep

open Cert.KernelIdeal Cert.KernelIdeal.Gen Cert.KernelIdeal.Pieces Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## One point -/

/-- After the first point of a group the running sum is the point's block folded into the reset value. -/
theorem first_at_0 (c : Dev nD) (t : Fin cfg0.N) (h0 : t.val % 4 = 0) :
    (outsAt0 m c t.val t.isLt).2.1 = k0_pay7 (iblk m c 0 t) (k0_pay3 (F := F)) := by
  have h1 : ¬t.val % 4 = 3 := by omega
  refine (congrArg (fun p => p.2.1) (outsAt0_A m c t h0 h1)).trans ?_
  exact first_0 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t)

/-- After a later point it is the point's block folded into what the point before left. -/
theorem later_at_0 (c : Dev nD) (t : Fin cfg0.N) (h0 : ¬t.val % 4 = 0) :
    (outsAt0 m c t.val t.isLt).2.1 = k0_pay7 (iblk m c 0 t) (outsAt0 m c (t.val - 1) (Nat.lt_of_le_of_lt (Nat.sub_le _ _) t.isLt)).2.1 := by
  by_cases h1 : t.val % 4 = 3
  · refine (congrArg (fun p => p.2.1) (outsAt0_C m c t h0 h1)).trans ?_
    exact last_0 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · refine (congrArg (fun p => p.2.1) (outsAt0_B m c t h0 h1)).trans ?_
    exact middle_0 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- After the first point of a group the running sum of squares is the point's block folded into the reset value. -/
theorem first_at_1 (c : Dev nD) (t : Fin cfg0.N) (h0 : t.val % 4 = 0) :
    (outsAt0 m c t.val t.isLt).2.2.1 = k0_pay8 (iblk m c 0 t) (k0_pay4 (F := F)) := by
  have h1 : ¬t.val % 4 = 3 := by omega
  refine (congrArg (fun p => p.2.2.1) (outsAt0_A m c t h0 h1)).trans ?_
  exact first_1 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t)

/-- After a later point it is the point's block folded into what the point before left. -/
theorem later_at_1 (c : Dev nD) (t : Fin cfg0.N) (h0 : ¬t.val % 4 = 0) :
    (outsAt0 m c t.val t.isLt).2.2.1 = k0_pay8 (iblk m c 0 t) (outsAt0 m c (t.val - 1) (Nat.lt_of_le_of_lt (Nat.sub_le _ _) t.isLt)).2.2.1 := by
  by_cases h1 : t.val % 4 = 3
  · refine (congrArg (fun p => p.2.2.1) (outsAt0_C m c t h0 h1)).trans ?_
    exact last_1 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · refine (congrArg (fun p => p.2.2.1) (outsAt0_B m c t h0 h1)).trans ?_
    exact middle_1 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- After the first point of a group the running maximum is the point's block folded into the reset value. -/
theorem first_at_2 (c : Dev nD) (t : Fin cfg0.N) (h0 : t.val % 4 = 0) :
    (outsAt0 m c t.val t.isLt).2.2.2.1 = k0_pay9 (iblk m c 0 t) (k0_pay5 (F := F)) := by
  have h1 : ¬t.val % 4 = 3 := by omega
  refine (congrArg (fun p => p.2.2.2.1) (outsAt0_A m c t h0 h1)).trans ?_
  exact first_2 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t)

/-- After a later point it is the point's block folded into what the point before left. -/
theorem later_at_2 (c : Dev nD) (t : Fin cfg0.N) (h0 : ¬t.val % 4 = 0) :
    (outsAt0 m c t.val t.isLt).2.2.2.1 = k0_pay9 (iblk m c 0 t) (outsAt0 m c (t.val - 1) (Nat.lt_of_le_of_lt (Nat.sub_le _ _) t.isLt)).2.2.2.1 := by
  by_cases h1 : t.val % 4 = 3
  · refine (congrArg (fun p => p.2.2.2.1) (outsAt0_C m c t h0 h1)).trans ?_
    exact last_2 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · refine (congrArg (fun p => p.2.2.2.1) (outsAt0_B m c t h0 h1)).trans ?_
    exact middle_2 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- After the first point of a group the running minimum is the point's block folded into the reset value. -/
theorem first_at_3 (c : Dev nD) (t : Fin cfg0.N) (h0 : t.val % 4 = 0) :
    (outsAt0 m c t.val t.isLt).2.2.2.2 = k0_pay10 (iblk m c 0 t) (k0_pay6 (F := F)) := by
  have h1 : ¬t.val % 4 = 3 := by omega
  refine (congrArg (fun p => p.2.2.2.2) (outsAt0_A m c t h0 h1)).trans ?_
  exact first_3 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t)

/-- After a later point it is the point's block folded into what the point before left. -/
theorem later_at_3 (c : Dev nD) (t : Fin cfg0.N) (h0 : ¬t.val % 4 = 0) :
    (outsAt0 m c t.val t.isLt).2.2.2.2 = k0_pay10 (iblk m c 0 t) (outsAt0 m c (t.val - 1) (Nat.lt_of_le_of_lt (Nat.sub_le _ _) t.isLt)).2.2.2.2 := by
  by_cases h1 : t.val % 4 = 3
  · refine (congrArg (fun p => p.2.2.2.2) (outsAt0_C m c t h0 h1)).trans ?_
    exact last_3 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · refine (congrArg (fun p => p.2.2.2.2) (outsAt0_B m c t h0 h1)).trans ?_
    exact middle_3 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-! ## The last point of a group -/

/-- The three points before a point `t`. -/
abbrev back1 (t : Fin cfg0.N) : Fin cfg0.N := ⟨t.val - 1, Nat.lt_of_le_of_lt (Nat.sub_le _ _) t.isLt⟩
abbrev back2 (t : Fin cfg0.N) : Fin cfg0.N := back1 (back1 t)
abbrev back3 (t : Fin cfg0.N) : Fin cfg0.N := back1 (back2 t)

/-- The running sum at the last point `t` of a group: the group's four blocks folded in, first to last, from the reset value. -/
theorem at_last_0 (c : Dev nD) (t : Fin cfg0.N) (h1 : t.val % 4 = 3) :
    (outsAt0 m c t.val t.isLt).2.1
      = k0_pay7 (iblk m c 0 t) (k0_pay7 (iblk m c 0 (back1 t)) (k0_pay7 (iblk m c 0 (back2 t))
          (k0_pay7 (iblk m c 0 (back3 t)) (k0_pay3 (F := F))))) := by
  have hN : cfg0.N = 32 := N_0
  have ht := t.isLt
  have e3 := later_at_0 m c t (by omega)
  have e2 := later_at_0 m c (back1 t) (by show ¬(t.val - 1) % 4 = 0; omega)
  have e1 := later_at_0 m c (back2 t) (by show ¬(t.val - 1 - 1) % 4 = 0; omega)
  have e0 := first_at_0 m c (back3 t) (by show (t.val - 1 - 1 - 1) % 4 = 0; omega)
  exact e3.trans (congrArg _ (e2.trans (congrArg _ (e1.trans (congrArg _ e0)))))

/-- The running sum of squares at the last point `t` of a group: the group's four blocks folded in, first to last, from the reset value. -/
theorem at_last_1 (c : Dev nD) (t : Fin cfg0.N) (h1 : t.val % 4 = 3) :
    (outsAt0 m c t.val t.isLt).2.2.1
      = k0_pay8 (iblk m c 0 t) (k0_pay8 (iblk m c 0 (back1 t)) (k0_pay8 (iblk m c 0 (back2 t))
          (k0_pay8 (iblk m c 0 (back3 t)) (k0_pay4 (F := F))))) := by
  have hN : cfg0.N = 32 := N_0
  have ht := t.isLt
  have e3 := later_at_1 m c t (by omega)
  have e2 := later_at_1 m c (back1 t) (by show ¬(t.val - 1) % 4 = 0; omega)
  have e1 := later_at_1 m c (back2 t) (by show ¬(t.val - 1 - 1) % 4 = 0; omega)
  have e0 := first_at_1 m c (back3 t) (by show (t.val - 1 - 1 - 1) % 4 = 0; omega)
  exact e3.trans (congrArg _ (e2.trans (congrArg _ (e1.trans (congrArg _ e0)))))

/-- The running maximum at the last point `t` of a group: the group's four blocks folded in, first to last, from the reset value. -/
theorem at_last_2 (c : Dev nD) (t : Fin cfg0.N) (h1 : t.val % 4 = 3) :
    (outsAt0 m c t.val t.isLt).2.2.2.1
      = k0_pay9 (iblk m c 0 t) (k0_pay9 (iblk m c 0 (back1 t)) (k0_pay9 (iblk m c 0 (back2 t))
          (k0_pay9 (iblk m c 0 (back3 t)) (k0_pay5 (F := F))))) := by
  have hN : cfg0.N = 32 := N_0
  have ht := t.isLt
  have e3 := later_at_2 m c t (by omega)
  have e2 := later_at_2 m c (back1 t) (by show ¬(t.val - 1) % 4 = 0; omega)
  have e1 := later_at_2 m c (back2 t) (by show ¬(t.val - 1 - 1) % 4 = 0; omega)
  have e0 := first_at_2 m c (back3 t) (by show (t.val - 1 - 1 - 1) % 4 = 0; omega)
  exact e3.trans (congrArg _ (e2.trans (congrArg _ (e1.trans (congrArg _ e0)))))

/-- The running minimum at the last point `t` of a group: the group's four blocks folded in, first to last, from the reset value. -/
theorem at_last_3 (c : Dev nD) (t : Fin cfg0.N) (h1 : t.val % 4 = 3) :
    (outsAt0 m c t.val t.isLt).2.2.2.2
      = k0_pay10 (iblk m c 0 t) (k0_pay10 (iblk m c 0 (back1 t)) (k0_pay10 (iblk m c 0 (back2 t))
          (k0_pay10 (iblk m c 0 (back3 t)) (k0_pay6 (F := F))))) := by
  have hN : cfg0.N = 32 := N_0
  have ht := t.isLt
  have e3 := later_at_3 m c t (by omega)
  have e2 := later_at_3 m c (back1 t) (by show ¬(t.val - 1) % 4 = 0; omega)
  have e1 := later_at_3 m c (back2 t) (by show ¬(t.val - 1 - 1) % 4 = 0; omega)
  have e0 := first_at_3 m c (back3 t) (by show (t.val - 1 - 1 - 1) % 4 = 0; omega)
  exact e3.trans (congrArg _ (e2.trans (congrArg _ (e1.trans (congrArg _ e0)))))

/-- The output block the last point `t` of a group writes: the five pieces, over the accumulators as the point leaves them. -/
theorem out_last [∀ e, Nonempty (Elt F e)] (c : Dev nD) (t : Fin cfg0.N) (h1 : t.val % 4 = 3) :
    (outsAt0 m c t.val t.isLt).1
      = View.canon (written (outsAt0 m c t.val t.isLt).2.1 (outsAt0 m c t.val t.isLt).2.2.1
          (outsAt0 m c t.val t.isLt).2.2.2.1 (outsAt0 m c t.val t.isLt).2.2.2.2) := by
  have h0 : ¬t.val % 4 = 0 := by omega
  rw [later_at_0 m c t h0, later_at_1 m c t h0, later_at_2 m c t h0, later_at_3 m c t h0]
  refine (congrArg (fun p => p.1) (outsAt0_C m c t h0 h1)).trans ?_
  exact last_out c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Sweep

end
-- ==== Proof.Spec.lean ====
/-
  Five pooled statistics of one column of 8192 extended reals — mean, maximum, minimum, sum and the
  population standard deviation — in the two arrangements the two programs use, and the array of
  64 × 640 numbers they fill: row `b`, columns `128·q + d` for `q = 0 … 4`, hold statistic `q` of the
  column `k ↦ x (b, k, d)` of a 64 × 8192 × 128 array `x`.

  The first arrangement takes the mean as the total times 2⁻¹³ and the variance as the mean of the squares
  minus the square of the mean, clamped at zero; the second takes the mean as the total divided by 8192 and
  the variance as the mean of the squared deviations from that mean. The two agree on every column of real
  numbers (Algebra.lean); on a column holding an infinity they need not.
-/
import Idealize.ShloMosaic.PureOps.Ideal
import Idealize.ShloMosaic.Lib.ValueIdx

noncomputable section

namespace Cert.Pool

open Idealize.ShloMosaic Idealize.ShloMosaic.ValueIdx

/-- 2⁻¹³ as a binary32 pattern, and 8192 as one. -/
abbrev invN : EReal := Ideal.ofBits .f32 0x39000000#32
abbrev cntN : EReal := Ideal.ofBits .f32 0x46000000#32

section Column
variable (f : Fin 8192 → EReal)

/-- The column's sum, the sum of its squares, its maximum (from −∞) and its minimum (from +∞). -/
def total : EReal := ∑ k, f k
def totalSq : EReal := ∑ k, f k * f k
def top : EReal := (Finset.univ : Finset (Fin 8192)).fold max (Ideal.ofBits .f32 0xFF800000#32) f
def bot : EReal := (Finset.univ : Finset (Fin 8192)).fold min (Ideal.ofBits .f32 0x7F800000#32) f

/-- Mean and deviation, first arrangement: products with 2⁻¹³, the variance as E[f²] − E[f]², clamped at 0. -/
def meanMul : EReal := total f * invN
def devMul : EReal := Ideal.sqrt (max (totalSq f * invN - meanMul f * meanMul f) 0)

/-- Mean and deviation, second arrangement: quotients by 8192, the variance as the mean squared deviation. -/
def meanDiv : EReal := Ideal.div (total f) cntN
def devDiv : EReal := Ideal.sqrt (Ideal.div (∑ k, (f k - meanDiv f) * (f k - meanDiv f)) cntN)

/-- Statistic `q` of the column in the first arrangement, and in the second. -/
def statMul : Fin 5 → EReal
  | 0 => meanMul f | 1 => top f | 2 => bot f | 3 => total f | 4 => devMul f
def statDiv : Fin 5 → EReal
  | 0 => meanDiv f | 1 => top f | 2 => bot f | 3 => total f | 4 => devDiv f

end Column

/-- Column `(b, ·, d)` of a 64 × 8192 × 128 array. -/
def col (x : (⟨3, ![64, 8192, 128]⟩ : Shape).Idx → EReal) (b : Fin 64) (d : Fin 128) : Fin 8192 → EReal :=
  fun k => x (ix3 b k d)

/-- Output column `128·q + d`. -/
def outCol (q : Fin 5) (d : Fin 128) : Fin 640 := ⟨128 * q.val + d.val, by have := q.isLt; have := d.isLt; omega⟩

/-- The pooled array in the first arrangement: entry `(b, c)` is statistic `c / 128` of column `(b, ·, c % 128)`. -/
def pooledMul (x : (⟨3, ![64, 8192, 128]⟩ : Shape).Idx → EReal) : (⟨2, ![64, 640]⟩ : Shape).Idx → EReal :=
  fun o => statMul (col x (o 0) ⟨(o 1).val % 128, Nat.mod_lt _ (by norm_num)⟩)
    ⟨(o 1).val / 128, by have := (o 1).isLt; simp only [Matrix.cons_val_one, Matrix.cons_val_zero] at this; omega⟩

/-- … and in the second. -/
def pooledDiv (x : (⟨3, ![64, 8192, 128]⟩ : Shape).Idx → EReal) : (⟨2, ![64, 640]⟩ : Shape).Idx → EReal :=
  fun o => statDiv (col x (o 0) ⟨(o 1).val % 128, Nat.mod_lt _ (by norm_num)⟩)
    ⟨(o 1).val / 128, by have := (o 1).isLt; simp only [Matrix.cons_val_one, Matrix.cons_val_zero] at this; omega⟩

theorem pooledMul_apply (x : (⟨3, ![64, 8192, 128]⟩ : Shape).Idx → EReal) (b : Fin 64) (q : Fin 5) (d : Fin 128) :
    pooledMul x (ix2 b (outCol q d)) = statMul (col x b d) q := by
  have hq := q.isLt; have hd := d.isLt
  have h1 : (128 * q.val + d.val) % 128 = d.val := by omega
  have h2 : (128 * q.val + d.val) / 128 = q.val := by omega
  show statMul (col x b ⟨(128 * q.val + d.val) % 128, _⟩) ⟨(128 * q.val + d.val) / 128, _⟩ = _
  congr 1
  · congr 1; exact Fin.ext h1
  · exact Fin.ext h2

theorem pooledDiv_apply (x : (⟨3, ![64, 8192, 128]⟩ : Shape).Idx → EReal) (b : Fin 64) (q : Fin 5) (d : Fin 128) :
    pooledDiv x (ix2 b (outCol q d)) = statDiv (col x b d) q := by
  have hq := q.isLt; have hd := d.isLt
  have h1 : (128 * q.val + d.val) % 128 = d.val := by omega
  have h2 : (128 * q.val + d.val) / 128 = q.val := by omega
  show statDiv (col x b ⟨(128 * q.val + d.val) % 128, _⟩) ⟨(128 * q.val + d.val) / 128, _⟩ = _
  congr 1
  · congr 1; exact Fin.ext h1
  · exact Fin.ext h2

/-- Every output index is `(b, 128·q + d)` for one `b`, `q`, `d`. -/
theorem exists_outCol (o : (⟨2, ![64, 640]⟩ : Shape).Idx) :
    ∃ (b : Fin 64) (q : Fin 5) (d : Fin 128), o = ix2 b (outCol q d) := by
  have h := (o 1).isLt
  simp only [Matrix.cons_val_one, Matrix.cons_val_zero] at h
  refine ⟨o 0, ⟨(o 1).val / 128, by omega⟩, ⟨(o 1).val % 128, Nat.mod_lt _ (by norm_num)⟩, ?_⟩
  refine (eq_ix2 o).trans ?_
  congr 1
  exact Fin.ext (by show (o 1).val = 128 * ((o 1).val / 128) + (o 1).val % 128; omega)

end Cert.Pool

end
-- ==== Proof.Payloads.lean ====
/-
  The body's arithmetic read at one entry (r, d) of an 8 × 128 accumulator, on the extended reals:
  folding a block X of 8 × 2048 × 128 numbers into an accumulator adds the 2048 numbers X(r, ·, d) (or their squares) to
  the entry, or takes the larger (smaller) of the entry and their maximum (minimum); the reset values are 0, 0, −∞, +∞;
  the mean is the running sum times 2⁻¹³ and the deviation is √max(sumsq · 2⁻¹³ − mean², 0).
-/
import proofs.«172997_j57707180589696_2_alg».proof.Proof.Gen.KernelIdeal.Skeleton
import proofs.«172997_j57707180589696_2_alg».proof.Proof.Spec
import Idealize.ShloMosaic.PureOps.Ideal.Laws
import Idealize.ShloMosaic.Lib.ValueIdx
import Idealize.ShloMosaic.Lib.Pipeline.Value

noncomputable section

namespace Cert.KernelIdeal.Payloads

open Cert.KernelIdeal Cert.KernelIdeal.Gen Idealize.ShloMosaic Idealize.ShloMosaic.ValueIdx

/-- Entry (r, d) of the reduced shape, with coordinate k put back on the reduced axis, is (r, k, d). -/
theorem lift_eq (h : S8x2048x128.Reduces [1] S8x128) (r : Fin 8) (d : Fin 128) (k : Fin 2048) :
    h.lift (ix2 r d) k = ix3 r k d := by
  funext a; apply Fin.ext
  match a with
  | ⟨0, _⟩ => rfl
  | ⟨1, _⟩ => rfl
  | ⟨2, _⟩ => rfl

/-- Running sum. -/
theorem sum_apply (X : FVec Ideal S8x2048x128 .f32) (acc : FVec Ideal S8x128 .f32) (r : Fin 8) (d : Fin 128) :
    k0_pay7 (F := Ideal) X acc (ix2 r d) = acc (ix2 r d) + ∑ k : Fin 2048, X (ix3 r k d) := by
  unfold k0_pay7
  refine (congrFun (shapeCast_self _ _) _).trans ?_
  show acc (ix2 r d) + multiReduction .add [1] S8x128 X 0x00000000#32 reduces_S8x2048x128_S8x128 (.inl rfl) rfl (ix2 r d) = _
  refine congrArg (acc (ix2 r d) + ·) ?_
  refine (Ideal.multiReduction_add_single X 0x00000000#32 reduces_S8x2048x128_S8x128 (.inl rfl) rfl (ix2 r d)).trans ?_
  exact Finset.sum_congr rfl fun k _ => congrArg X (lift_eq _ r d k)

/-- Running sum of squares. -/
theorem sumsq_apply (X : FVec Ideal S8x2048x128 .f32) (acc : FVec Ideal S8x128 .f32) (r : Fin 8) (d : Fin 128) :
    k0_pay8 (F := Ideal) X acc (ix2 r d) = acc (ix2 r d) + ∑ k : Fin 2048, X (ix3 r k d) * X (ix3 r k d) := by
  unfold k0_pay8
  refine (congrFun (shapeCast_self _ _) _).trans ?_
  show acc (ix2 r d) + multiReduction .add [1] S8x128 (mulf X X) 0x00000000#32 reduces_S8x2048x128_S8x128 (.inl rfl) rfl (ix2 r d) = _
  refine congrArg (acc (ix2 r d) + ·) ?_
  refine (Ideal.multiReduction_add_single (mulf X X) 0x00000000#32 reduces_S8x2048x128_S8x128 (.inl rfl) rfl (ix2 r d)).trans ?_
  exact Finset.sum_congr rfl fun k _ => by rw [lift_eq _ r d k]; rfl

/-- Running maximum. -/
theorem max_apply (X : FVec Ideal S8x2048x128 .f32) (acc : FVec Ideal S8x128 .f32) (r : Fin 8) (d : Fin 128) :
    k0_pay9 (F := Ideal) X acc (ix2 r d)
      = max (acc (ix2 r d)) ((Finset.univ : Finset (Fin 2048)).fold max (Ideal.ofBits .f32 0xFF800000#32) fun k => X (ix3 r k d)) := by
  unfold k0_pay9
  refine (congrFun (shapeCast_self _ _) _).trans ?_
  refine (maximumf_apply _ _ _).trans ?_
  refine congrArg (max (acc (ix2 r d))) ?_
  refine (multiReduction_maximumf_eq_fold X 0xFF800000#32 reduces_S8x2048x128_S8x128 (.inl rfl) rfl (ix2 r d)).trans ?_
  refine (reduces_S8x2048x128_S8x128.fold_filter_drop_single _ _ X (ix2 r d)).trans ?_
  exact Finset.fold_congr fun k _ => congrArg X (lift_eq _ r d k)

/-- Running minimum. -/
theorem min_apply (X : FVec Ideal S8x2048x128 .f32) (acc : FVec Ideal S8x128 .f32) (r : Fin 8) (d : Fin 128) :
    k0_pay10 (F := Ideal) X acc (ix2 r d)
      = min (acc (ix2 r d)) ((Finset.univ : Finset (Fin 2048)).fold min (Ideal.ofBits .f32 0x7F800000#32) fun k => X (ix3 r k d)) := by
  unfold k0_pay10
  refine (congrFun (shapeCast_self _ _) _).trans ?_
  refine (minimumf_apply _ _ _).trans ?_
  refine congrArg (min (acc (ix2 r d))) ?_
  refine (multiReduction_minimumf_eq_fold X 0x7F800000#32 reduces_S8x2048x128_S8x128 (.inl rfl) rfl (ix2 r d)).trans ?_
  refine (reduces_S8x2048x128_S8x128.fold_filter_drop_single _ _ X (ix2 r d)).trans ?_
  exact Finset.fold_congr fun k _ => congrArg X (lift_eq _ r d k)

/-- The reset values. -/
theorem reset_sum (j : S8x128.Idx) : k0_pay3 (F := Ideal) j = 0 := by
  unfold k0_pay3
  refine (congrFun (shapeCast_self _ _) _).trans ?_
  exact Ideal.ofBits_zero_f32
theorem reset_sumsq (j : S8x128.Idx) : k0_pay4 (F := Ideal) j = 0 := by
  unfold k0_pay4
  refine (congrFun (shapeCast_self _ _) _).trans ?_
  exact Ideal.ofBits_zero_f32
theorem reset_max (j : S8x128.Idx) : k0_pay5 (F := Ideal) j = Ideal.ofBits .f32 0xFF800000#32 := by
  unfold k0_pay5
  exact congrFun (shapeCast_self _ _) _
theorem reset_min (j : S8x128.Idx) : k0_pay6 (F := Ideal) j = Ideal.ofBits .f32 0x7F800000#32 := by
  unfold k0_pay6
  exact congrFun (shapeCast_self _ _) _

/-- The mean and the deviation from the running sum `s` and the running sum of squares `q`. -/
theorem mean_apply (s : FVec Ideal S8x128 .f32) (j : S8x128.Idx) :
    k0_pay1 (F := Ideal) s j = s j * Cert.Pool.invN := rfl

theorem dev_apply (s q : FVec Ideal S8x128 .f32) (j : S8x128.Idx) :
    k0_pay2 (F := Ideal) s q j
      = Ideal.sqrt (max (q j * Cert.Pool.invN - s j * Cert.Pool.invN * (s j * Cert.Pool.invN)) 0) := by
  unfold k0_pay2
  show Ideal.sqrt (max (q j * Cert.Pool.invN - k0_pay1 (F := Ideal) s j * k0_pay1 (F := Ideal) s j) (Ideal.ofBits .f32 0x00000000#32)) = _
  rw [Ideal.ofBits_zero_f32]
  rfl

end Cert.KernelIdeal.Payloads

end
-- ==== Proof.Blocks.lean ====
/-
  Four consecutive blocks of 2048 indices make the 8192 indices of a column: `k = 2048·j + n` with
  `j = k / 2048 < 4` and `n = k % 2048 < 2048`. A sum, a maximum or a minimum accumulated block after block
  is therefore the sum, maximum or minimum over the whole column. Nothing here needs finiteness: addition of
  extended reals is commutative and associative, and `max` / `min` are those of a linear order (idempotent,
  so that starting every block from the same `e` is harmless).

  The columns are functions on all naturals, so that no bound proofs appear in the statements; the last three
  corollaries read them back as the statistics `total`, `top`, `bot` of a column on `Fin 8192`.
-/
import proofs.«172997_j57707180589696_2_alg».proof.Proof.Spec
import Mathlib.Algebra.BigOperators.Fin
import Mathlib.Algebra.BigOperators.Intervals
import Mathlib.Data.Finset.Fold
import Mathlib.Tactic.Tauto

noncomputable section

namespace Cert.Pool

open Idealize.ShloMosaic

/-- A property holds at every index below 8192 exactly when it holds on each of the four consecutive blocks
    of 2048 indices. -/
theorem forall_blocks (P : ℕ → Prop) :
    (∀ k : Fin 8192, P k) ↔
      (((∀ n : Fin 2048, P (0 * 2048 + n)) ∧ (∀ n : Fin 2048, P (1 * 2048 + n))) ∧
        (∀ n : Fin 2048, P (2 * 2048 + n))) ∧ ∀ n : Fin 2048, P (3 * 2048 + n) := by
  constructor
  · intro h
    exact ⟨⟨⟨fun n => h ⟨0 * 2048 + n, by omega⟩, fun n => h ⟨1 * 2048 + n, by omega⟩⟩,
      fun n => h ⟨2 * 2048 + n, by omega⟩⟩, fun n => h ⟨3 * 2048 + n, by omega⟩⟩
  · rintro ⟨⟨⟨h0, h1⟩, h2⟩, h3⟩ k
    have hk := k.isLt
    rcases (by omega : k.val < 2048 ∨ (2048 ≤ k.val ∧ k.val < 4096) ∨ (4096 ≤ k.val ∧ k.val < 6144) ∨
        6144 ≤ k.val) with h | h | h | h
    · have := h0 ⟨k.val, h⟩
      rwa [show 0 * 2048 + k.val = k.val by omega] at this
    · have := h1 ⟨k.val - 2048, by omega⟩
      rwa [show 1 * 2048 + (k.val - 2048) = k.val by omega] at this
    · have := h2 ⟨k.val - 4096, by omega⟩
      rwa [show 2 * 2048 + (k.val - 4096) = k.val by omega] at this
    · have := h3 ⟨k.val - 6144, by omega⟩
      rwa [show 3 * 2048 + (k.val - 6144) = k.val by omega] at this

/-- The four block sums, added one after the other onto `z`, are `z` plus the sum over all 8192 indices:
    `Σ_{i < a + b} g i = Σ_{i < a} g i + Σ_{i < b} g (a + i)`, three times, and associativity. -/
theorem sum_blocks (g : ℕ → EReal) (z : EReal) :
    (((z + ∑ n : Fin 2048, g (0 * 2048 + n)) + ∑ n : Fin 2048, g (1 * 2048 + n)) +
        ∑ n : Fin 2048, g (2 * 2048 + n)) + ∑ n : Fin 2048, g (3 * 2048 + n) =
      z + ∑ k : Fin 8192, g k := by
  rw [Fin.sum_univ_eq_sum_range (fun i => g (0 * 2048 + i)), Fin.sum_univ_eq_sum_range (fun i => g (1 * 2048 + i)),
    Fin.sum_univ_eq_sum_range (fun i => g (2 * 2048 + i)), Fin.sum_univ_eq_sum_range (fun i => g (3 * 2048 + i)),
    Fin.sum_univ_eq_sum_range g,
    show (8192 : ℕ) = 0 * 2048 + 2048 + 2048 + 2048 + 2048 by norm_num,
    Finset.sum_range_add, Finset.sum_range_add, Finset.sum_range_add, Finset.sum_range_add]
  simp only [Nat.reduceMul, Nat.reduceAdd, Finset.range_zero, Finset.sum_empty, zero_add, add_assoc]

/-- The maximum of `e` and the four block maxima (each started from `e`) is the maximum over all 8192 indices
    started from `e`: either side is `≤ c` exactly when `e` and every `g k` are. -/
theorem max_blocks (g : ℕ → EReal) (e : EReal) :
    max (max (max (max e
        ((Finset.univ : Finset (Fin 2048)).fold max e (fun n : Fin 2048 => g (0 * 2048 + n))))
        ((Finset.univ : Finset (Fin 2048)).fold max e (fun n : Fin 2048 => g (1 * 2048 + n))))
        ((Finset.univ : Finset (Fin 2048)).fold max e (fun n : Fin 2048 => g (2 * 2048 + n))))
        ((Finset.univ : Finset (Fin 2048)).fold max e (fun n : Fin 2048 => g (3 * 2048 + n))) =
      (Finset.univ : Finset (Fin 8192)).fold max e (fun k : Fin 8192 => g k) := by
  refine eq_of_forall_ge_iff fun c => ?_
  simp only [max_le_iff, Finset.fold_max_le, Finset.mem_univ, forall_true_left]
  rw [forall_blocks (fun i => g i ≤ c)]
  tauto

/-- The same for the minimum: either side is `≥ c` exactly when `e` and every `g k` are. -/
theorem min_blocks (g : ℕ → EReal) (e : EReal) :
    min (min (min (min e
        ((Finset.univ : Finset (Fin 2048)).fold min e (fun n : Fin 2048 => g (0 * 2048 + n))))
        ((Finset.univ : Finset (Fin 2048)).fold min e (fun n : Fin 2048 => g (1 * 2048 + n))))
        ((Finset.univ : Finset (Fin 2048)).fold min e (fun n : Fin 2048 => g (2 * 2048 + n))))
        ((Finset.univ : Finset (Fin 2048)).fold min e (fun n : Fin 2048 => g (3 * 2048 + n))) =
      (Finset.univ : Finset (Fin 8192)).fold min e (fun k : Fin 8192 => g k) := by
  refine eq_of_forall_le_iff fun c => ?_
  simp only [le_min_iff, Finset.le_fold_min, Finset.mem_univ, forall_true_left]
  rw [forall_blocks (fun i => c ≤ g i)]
  tauto

/-! ### Read back as the statistics of a column

  `g : ℕ → EReal` extends the column `f` when `g k = f k` for every `k < 8192`. -/

/-- The four block sums onto `z` are `z` plus the column's total. -/
theorem total_blocks (f : Fin 8192 → EReal) (g : ℕ → EReal) (hg : ∀ k : Fin 8192, g k = f k) (z : EReal) :
    (((z + ∑ n : Fin 2048, g (0 * 2048 + n)) + ∑ n : Fin 2048, g (1 * 2048 + n)) +
        ∑ n : Fin 2048, g (2 * 2048 + n)) + ∑ n : Fin 2048, g (3 * 2048 + n) = z + total f := by
  rw [sum_blocks, total]; simp only [hg]

/-- The four block maxima from `−∞`'s pattern make the column's maximum. -/
theorem top_blocks (f : Fin 8192 → EReal) (g : ℕ → EReal) (hg : ∀ k : Fin 8192, g k = f k) :
    max (max (max (max (Ideal.ofBits .f32 0xFF800000#32)
        ((Finset.univ : Finset (Fin 2048)).fold max (Ideal.ofBits .f32 0xFF800000#32) (fun n : Fin 2048 => g (0 * 2048 + n))))
        ((Finset.univ : Finset (Fin 2048)).fold max (Ideal.ofBits .f32 0xFF800000#32) (fun n : Fin 2048 => g (1 * 2048 + n))))
        ((Finset.univ : Finset (Fin 2048)).fold max (Ideal.ofBits .f32 0xFF800000#32) (fun n : Fin 2048 => g (2 * 2048 + n))))
        ((Finset.univ : Finset (Fin 2048)).fold max (Ideal.ofBits .f32 0xFF800000#32) (fun n : Fin 2048 => g (3 * 2048 + n))) =
      top f := by
  rw [max_blocks, top]; simp only [hg]

/-- The four block minima from `+∞`'s pattern make the column's minimum. -/
theorem bot_blocks (f : Fin 8192 → EReal) (g : ℕ → EReal) (hg : ∀ k : Fin 8192, g k = f k) :
    min (min (min (min (Ideal.ofBits .f32 0x7F800000#32)
        ((Finset.univ : Finset (Fin 2048)).fold min (Ideal.ofBits .f32 0x7F800000#32) (fun n : Fin 2048 => g (0 * 2048 + n))))
        ((Finset.univ : Finset (Fin 2048)).fold min (Ideal.ofBits .f32 0x7F800000#32) (fun n : Fin 2048 => g (1 * 2048 + n))))
        ((Finset.univ : Finset (Fin 2048)).fold min (Ideal.ofBits .f32 0x7F800000#32) (fun n : Fin 2048 => g (2 * 2048 + n))))
        ((Finset.univ : Finset (Fin 2048)).fold min (Ideal.ofBits .f32 0x7F800000#32) (fun n : Fin 2048 => g (3 * 2048 + n))) =
      bot f := by
  rw [min_blocks, bot]; simp only [hg]

end Cert.Pool

end
-- ==== Proof.Entry.lean ====
/-
  One entry of an accumulator at the last point of a group, as a statistic of a whole column.

  Let t be the last point of its group (t % 4 = 3), r < 8 a row of the block and d < 128. The four points of the group read
  the blocks x(8·(t/4) + r', 2048·j + k, d'), j = 0 … 3, of the argument array x; folding the four blocks in, one after the
  other, the running sum at (r, d) becomes the sum over the whole column k ↦ x(8·(t/4) + r, k, d), and likewise the sum of
  squares, the maximum and the minimum: four consecutive blocks of 2048 positions make the 8192 positions of the column.
-/
import proofs.«172997_j57707180589696_2_alg».proof.Proof.Sweep
import proofs.«172997_j57707180589696_2_alg».proof.Proof.Payloads
import proofs.«172997_j57707180589696_2_alg».proof.Proof.Blocks

set_option maxRecDepth 16384

noncomputable section

namespace Cert.KernelIdeal.Entry

open Cert.KernelIdeal Cert.KernelIdeal.Gen Cert.KernelIdeal.Pieces Cert.KernelIdeal.Sweep Cert.KernelIdeal.Payloads Cert.Pool
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- Where the two windows' blocks sit at point `t`: the input's at block (t / 4, t % 4, 0), the output's at block (t / 4, 0). -/
theorem idx_facts : ∀ t : Fin cfg0.N, win0_0.index t (0 : Fin 3) = t.val / 4 ∧ win0_0.index t (1 : Fin 3) = t.val % 4
    ∧ win0_0.index t (2 : Fin 3) = 0 ∧ win0_1.index t (0 : Fin 2) = t.val / 4 ∧ win0_1.index t (1 : Fin 2) = 0 :=
  (by decide +kernel : ∀ t : Fin grid0.N, _)

/-- A column extended by zero to all naturals, so that positions can be written `j * 2048 + k` without bounds. -/
def ext (f : Fin 8192 → EReal) : ℕ → EReal := fun i => if h : i < 8192 then f ⟨i, h⟩ else 0

theorem ext_apply (f : Fin 8192 → EReal) (k : Fin 8192) : ext f k = f k := dif_pos k.isLt

/-- Entry (r, k, d) of the block point `t` reads is entry (8·(t/4) + r, 2048·(t%4) + k, d) of the argument array. -/
theorem block_apply (c : Dev nD) (t : Fin cfg0.N) (r : Fin 8) (k : Fin 2048) (d : Fin 128) (b : Fin 64) (kk : Fin 8192)
    (hb : b.val = t.val / 4 * 8 + r.val) (hk : kk.val = t.val % 4 * 2048 + k.val) :
    (iblk m c 0 t : Vec Ideal S8x2048x128 .f32) (ix3 r k d) = m ((c : Thread nD τ).loc main_arg0) (ix3 b kk d) := by
  obtain ⟨e0, e1, e2, -, -⟩ := idx_facts t
  show V m c main_arg0 (((cfg0.win 0).blk t).view.emb (ix3 r k d)) = m ((c : Thread nD τ).loc main_arg0) (ix3 b kk d)
  refine congrArg (m ((c : Thread nD τ).loc main_arg0)) ?_
  funext a; apply Fin.ext
  match a with
  | ⟨0, _⟩ => show win0_0.index t (0 : Fin 3) * 8 + 1 * r.val = b.val; omega
  | ⟨1, _⟩ => show win0_0.index t (1 : Fin 3) * 2048 + 1 * k.val = kk.val; omega
  | ⟨2, _⟩ => show win0_0.index t (2 : Fin 3) * 128 + 1 * d.val = d.val; omega

/-- … that is, position `j * 2048 + k` of column (b, ·, d), when the point is the j-th of its group. -/
theorem block_entry (c : Dev nD) (t : Fin cfg0.N) (j : ℕ) (hj : t.val % 4 = j) (r : Fin 8) (k : Fin 2048) (d : Fin 128) (b : Fin 64)
    (hb : b.val = t.val / 4 * 8 + r.val) :
    (iblk m c 0 t : Vec Ideal S8x2048x128 .f32) (ix3 r k d)
      = ext (col (m ((c : Thread nD τ).loc main_arg0)) b d) (j * 2048 + k.val) := by
  have hk := k.isLt
  have hj4 : j < 4 := by omega
  have hlt : j * 2048 + k.val < 8192 := by omega
  rw [ext, dif_pos hlt]
  exact block_apply m c t r k d b ⟨j * 2048 + k.val, hlt⟩ hb (by show j * 2048 + k.val = t.val % 4 * 2048 + k.val; rw [hj])

/-! ## One fold step at an entry -/

theorem sum_step (X : FVec Ideal S8x2048x128 .f32) (acc : FVec Ideal S8x128 .f32) (g : ℕ → EReal) (j : ℕ) (z : EReal)
    (r : Fin 8) (d : Fin 128) (hacc : acc (ix2 r d) = z) (hX : ∀ k : Fin 2048, X (ix3 r k d) = g (j * 2048 + k.val)) :
    k0_pay7 (F := Ideal) X acc (ix2 r d) = z + ∑ k : Fin 2048, g (j * 2048 + k) :=
  (sum_apply X acc r d).trans (by rw [hacc]; exact congrArg (z + ·) (Finset.sum_congr rfl fun k _ => hX k))

theorem sumsq_step (X : FVec Ideal S8x2048x128 .f32) (acc : FVec Ideal S8x128 .f32) (g : ℕ → EReal) (j : ℕ) (z : EReal)
    (r : Fin 8) (d : Fin 128) (hacc : acc (ix2 r d) = z) (hX : ∀ k : Fin 2048, X (ix3 r k d) = g (j * 2048 + k.val)) :
    k0_pay8 (F := Ideal) X acc (ix2 r d) = z + ∑ k : Fin 2048, g (j * 2048 + k) * g (j * 2048 + k) :=
  (sumsq_apply X acc r d).trans (by rw [hacc]; exact congrArg (z + ·) (Finset.sum_congr rfl fun k _ => by rw [hX k]))

theorem max_step (X : FVec Ideal S8x2048x128 .f32) (acc : FVec Ideal S8x128 .f32) (g : ℕ → EReal) (j : ℕ) (z : EReal)
    (r : Fin 8) (d : Fin 128) (hacc : acc (ix2 r d) = z) (hX : ∀ k : Fin 2048, X (ix3 r k d) = g (j * 2048 + k.val)) :
    k0_pay9 (F := Ideal) X acc (ix2 r d)
      = max z ((Finset.univ : Finset (Fin 2048)).fold max (Ideal.ofBits .f32 0xFF800000#32) (fun k : Fin 2048 => g (j * 2048 + k))) :=
  (max_apply X acc r d).trans (by rw [hacc]; exact congrArg (max z) (Finset.fold_congr fun k _ => hX k))

theorem min_step (X : FVec Ideal S8x2048x128 .f32) (acc : FVec Ideal S8x128 .f32) (g : ℕ → EReal) (j : ℕ) (z : EReal)
    (r : Fin 8) (d : Fin 128) (hacc : acc (ix2 r d) = z) (hX : ∀ k : Fin 2048, X (ix3 r k d) = g (j * 2048 + k.val)) :
    k0_pay10 (F := Ideal) X acc (ix2 r d)
      = min z ((Finset.univ : Finset (Fin 2048)).fold min (Ideal.ofBits .f32 0x7F800000#32) (fun k : Fin 2048 => g (j * 2048 + k))) :=
  (min_apply X acc r d).trans (by rw [hacc]; exact congrArg (min z) (Finset.fold_congr fun k _ => hX k))

/-! ## The accumulators at the last point of a group, at an entry -/

section Last
variable (c : Dev nD) (t : Fin cfg0.N) (h1 : t.val % 4 = 3) (r : Fin 8) (d : Fin 128) (b : Fin 64) (hb : b.val = t.val / 4 * 8 + r.val)
include h1 hb

/-- The group's four blocks at (r, ·, d) are the four quarters of column (b, ·, d). -/
theorem quarters :
    (∀ k : Fin 2048, (iblk m c 0 (back3 t) : Vec Ideal S8x2048x128 .f32) (ix3 r k d) = ext (col (m ((c : Thread nD τ).loc main_arg0)) b d) (0 * 2048 + k.val))
    ∧ (∀ k : Fin 2048, (iblk m c 0 (back2 t) : Vec Ideal S8x2048x128 .f32) (ix3 r k d) = ext (col (m ((c : Thread nD τ).loc main_arg0)) b d) (1 * 2048 + k.val))
    ∧ (∀ k : Fin 2048, (iblk m c 0 (back1 t) : Vec Ideal S8x2048x128 .f32) (ix3 r k d) = ext (col (m ((c : Thread nD τ).loc main_arg0)) b d) (2 * 2048 + k.val))
    ∧ (∀ k : Fin 2048, (iblk m c 0 t : Vec Ideal S8x2048x128 .f32) (ix3 r k d) = ext (col (m ((c : Thread nD τ).loc main_arg0)) b d) (3 * 2048 + k.val)) := by
  have hN : cfg0.N = 32 := N_0
  have ht := t.isLt
  refine ⟨fun k => block_entry m c (back3 t) 0 ?_ r k d b ?_, fun k => block_entry m c (back2 t) 1 ?_ r k d b ?_,
    fun k => block_entry m c (back1 t) 2 ?_ r k d b ?_, fun k => block_entry m c t 3 h1 r k d b hb⟩
  · show (t.val - 1 - 1 - 1) % 4 = 0; omega
  · show b.val = (t.val - 1 - 1 - 1) / 4 * 8 + r.val; omega
  · show (t.val - 1 - 1) % 4 = 1; omega
  · show b.val = (t.val - 1 - 1) / 4 * 8 + r.val; omega
  · show (t.val - 1) % 4 = 2; omega
  · show b.val = (t.val - 1) / 4 * 8 + r.val; omega

theorem sum_nested :
    (outsAt0 m c t.val t.isLt).2.1 (ix2 r d)
      = (fun g : ℕ → EReal => ((((0 + ∑ k : Fin 2048, g (0 * 2048 + k)) + ∑ k : Fin 2048, g (1 * 2048 + k)) + ∑ k : Fin 2048, g (2 * 2048 + k)) + ∑ k : Fin 2048, g (3 * 2048 + k))) (ext (col (m ((c : Thread nD τ).loc main_arg0)) b d)) := by
  obtain ⟨q0, q1, q2, q3⟩ := quarters m c t h1 r d b hb
  have a0 := sum_step (iblk m c 0 (back3 t)) (k0_pay3 (F := Ideal)) (ext (col (m ((c : Thread nD τ).loc main_arg0)) b d)) 0 0 r d (reset_sum _) q0
  have a1 := sum_step (iblk m c 0 (back2 t)) (k0_pay7 (F := Ideal) (iblk m c 0 (back3 t)) (k0_pay3 (F := Ideal))) (ext (col (m ((c : Thread nD τ).loc main_arg0)) b d)) 1 _ r d a0 q1
  have a2 := sum_step (iblk m c 0 (back1 t)) (k0_pay7 (F := Ideal) (iblk m c 0 (back2 t)) (k0_pay7 (F := Ideal) (iblk m c 0 (back3 t)) (k0_pay3 (F := Ideal)))) (ext (col (m ((c : Thread nD τ).loc main_arg0)) b d)) 2 _ r d a1 q2
  have a3 := sum_step (iblk m c 0 t) (k0_pay7 (F := Ideal) (iblk m c 0 (back1 t)) (k0_pay7 (F := Ideal) (iblk m c 0 (back2 t)) (k0_pay7 (F := Ideal) (iblk m c 0 (back3 t)) (k0_pay3 (F := Ideal))))) (ext (col (m ((c : Thread nD τ).loc main_arg0)) b d)) 3 _ r d a2 q3
  exact (congrFun (at_last_0 m c t h1) (ix2 r d)).trans a3

theorem sumsq_nested :
    (outsAt0 m c t.val t.isLt).2.2.1 (ix2 r d)
      = (fun g : ℕ → EReal => ((((0 + ∑ k : Fin 2048, g (0 * 2048 + k) * g (0 * 2048 + k)) + ∑ k : Fin 2048, g (1 * 2048 + k) * g (1 * 2048 + k)) + ∑ k : Fin 2048, g (2 * 2048 + k) * g (2 * 2048 + k)) + ∑ k : Fin 2048, g (3 * 2048 + k) * g (3 * 2048 + k))) (ext (col (m ((c : Thread nD τ).loc main_arg0)) b d)) := by
  obtain ⟨q0, q1, q2, q3⟩ := quarters m c t h1 r d b hb
  have a0 := sumsq_step (iblk m c 0 (back3 t)) (k0_pay4 (F := Ideal)) (ext (col (m ((c : Thread nD τ).loc main_arg0)) b d)) 0 0 r d (reset_sumsq _) q0
  have a1 := sumsq_step (iblk m c 0 (back2 t)) (k0_pay8 (F := Ideal) (iblk m c 0 (back3 t)) (k0_pay4 (F := Ideal))) (ext (col (m ((c : Thread nD τ).loc main_arg0)) b d)) 1 _ r d a0 q1
  have a2 := sumsq_step (iblk m c 0 (back1 t)) (k0_pay8 (F := Ideal) (iblk m c 0 (back2 t)) (k0_pay8 (F := Ideal) (iblk m c 0 (back3 t)) (k0_pay4 (F := Ideal)))) (ext (col (m ((c : Thread nD τ).loc main_arg0)) b d)) 2 _ r d a1 q2
  have a3 := sumsq_step (iblk m c 0 t) (k0_pay8 (F := Ideal) (iblk m c 0 (back1 t)) (k0_pay8 (F := Ideal) (iblk m c 0 (back2 t)) (k0_pay8 (F := Ideal) (iblk m c 0 (back3 t)) (k0_pay4 (F := Ideal))))) (ext (col (m ((c : Thread nD τ).loc main_arg0)) b d)) 3 _ r d a2 q3
  exact (congrFun (at_last_1 m c t h1) (ix2 r d)).trans a3

theorem max_nested :
    (outsAt0 m c t.val t.isLt).2.2.2.1 (ix2 r d)
      = (fun g : ℕ → EReal => (max (max (max (max (Ideal.ofBits .f32 0xFF800000#32) ((Finset.univ : Finset (Fin 2048)).fold max (Ideal.ofBits .f32 0xFF800000#32) (fun k : Fin 2048 => g (0 * 2048 + k)))) ((Finset.univ : Finset (Fin 2048)).fold max (Ideal.ofBits .f32 0xFF800000#32) (fun k : Fin 2048 => g (1 * 2048 + k)))) ((Finset.univ : Finset (Fin 2048)).fold max (Ideal.ofBits .f32 0xFF800000#32) (fun k : Fin 2048 => g (2 * 2048 + k)))) ((Finset.univ : Finset (Fin 2048)).fold max (Ideal.ofBits .f32 0xFF800000#32) (fun k : Fin 2048 => g (3 * 2048 + k))))) (ext (col (m ((c : Thread nD τ).loc main_arg0)) b d)) := by
  obtain ⟨q0, q1, q2, q3⟩ := quarters m c t h1 r d b hb
  have a0 := max_step (iblk m c 0 (back3 t)) (k0_pay5 (F := Ideal)) (ext (col (m ((c : Thread nD τ).loc main_arg0)) b d)) 0 (Ideal.ofBits .f32 0xFF800000#32) r d (reset_max _) q0
  have a1 := max_step (iblk m c 0 (back2 t)) (k0_pay9 (F := Ideal) (iblk m c 0 (back3 t)) (k0_pay5 (F := Ideal))) (ext (col (m ((c : Thread nD τ).loc main_arg0)) b d)) 1 _ r d a0 q1
  have a2 := max_step (iblk m c 0 (back1 t)) (k0_pay9 (F := Ideal) (iblk m c 0 (back2 t)) (k0_pay9 (F := Ideal) (iblk m c 0 (back3 t)) (k0_pay5 (F := Ideal)))) (ext (col (m ((c : Thread nD τ).loc main_arg0)) b d)) 2 _ r d a1 q2
  have a3 := max_step (iblk m c 0 t) (k0_pay9 (F := Ideal) (iblk m c 0 (back1 t)) (k0_pay9 (F := Ideal) (iblk m c 0 (back2 t)) (k0_pay9 (F := Ideal) (iblk m c 0 (back3 t)) (k0_pay5 (F := Ideal))))) (ext (col (m ((c : Thread nD τ).loc main_arg0)) b d)) 3 _ r d a2 q3
  exact (congrFun (at_last_2 m c t h1) (ix2 r d)).trans a3

theorem min_nested :
    (outsAt0 m c t.val t.isLt).2.2.2.2 (ix2 r d)
      = (fun g : ℕ → EReal => (min (min (min (min (Ideal.ofBits .f32 0x7F800000#32) ((Finset.univ : Finset (Fin 2048)).fold min (Ideal.ofBits .f32 0x7F800000#32) (fun k : Fin 2048 => g (0 * 2048 + k)))) ((Finset.univ : Finset (Fin 2048)).fold min (Ideal.ofBits .f32 0x7F800000#32) (fun k : Fin 2048 => g (1 * 2048 + k)))) ((Finset.univ : Finset (Fin 2048)).fold min (Ideal.ofBits .f32 0x7F800000#32) (fun k : Fin 2048 => g (2 * 2048 + k)))) ((Finset.univ : Finset (Fin 2048)).fold min (Ideal.ofBits .f32 0x7F800000#32) (fun k : Fin 2048 => g (3 * 2048 + k))))) (ext (col (m ((c : Thread nD τ).loc main_arg0)) b d)) := by
  obtain ⟨q0, q1, q2, q3⟩ := quarters m c t h1 r d b hb
  have a0 := min_step (iblk m c 0 (back3 t)) (k0_pay6 (F := Ideal)) (ext (col (m ((c : Thread nD τ).loc main_arg0)) b d)) 0 (Ideal.ofBits .f32 0x7F800000#32) r d (reset_min _) q0
  have a1 := min_step (iblk m c 0 (back2 t)) (k0_pay10 (F := Ideal) (iblk m c 0 (back3 t)) (k0_pay6 (F := Ideal))) (ext (col (m ((c : Thread nD τ).loc main_arg0)) b d)) 1 _ r d a0 q1
  have a2 := min_step (iblk m c 0 (back1 t)) (k0_pay10 (F := Ideal) (iblk m c 0 (back2 t)) (k0_pay10 (F := Ideal) (iblk m c 0 (back3 t)) (k0_pay6 (F := Ideal)))) (ext (col (m ((c : Thread nD τ).loc main_arg0)) b d)) 2 _ r d a1 q2
  have a3 := min_step (iblk m c 0 t) (k0_pay10 (F := Ideal) (iblk m c 0 (back1 t)) (k0_pay10 (F := Ideal) (iblk m c 0 (back2 t)) (k0_pay10 (F := Ideal) (iblk m c 0 (back3 t)) (k0_pay6 (F := Ideal))))) (ext (col (m ((c : Thread nD τ).loc main_arg0)) b d)) 3 _ r d a2 q3
  exact (congrFun (at_last_3 m c t h1) (ix2 r d)).trans a3

/-- The running sum at the last point of a group, at (r, d): the total of column (b, ·, d). -/
theorem sum_entry :
    (outsAt0 m c t.val t.isLt).2.1 (ix2 r d) = total (col (m ((c : Thread nD τ).loc main_arg0)) b d) :=
  (sum_nested m c t h1 r d b hb).trans
    ((total_blocks _ _ (ext_apply _) 0).trans (zero_add _))

/-- The running sum of squares: the column's sum of squares. -/
theorem sumsq_entry :
    (outsAt0 m c t.val t.isLt).2.2.1 (ix2 r d) = totalSq (col (m ((c : Thread nD τ).loc main_arg0)) b d) :=
  (sumsq_nested m c t h1 r d b hb).trans
    ((sum_blocks (fun i => ext (col (m ((c : Thread nD τ).loc main_arg0)) b d) i * ext (col (m ((c : Thread nD τ).loc main_arg0)) b d) i) 0).trans
      ((zero_add _).trans (by unfold totalSq; exact Finset.sum_congr rfl fun k _ => by rw [ext_apply])))

/-- The running maximum: the column's maximum. -/
theorem max_entry :
    (outsAt0 m c t.val t.isLt).2.2.2.1 (ix2 r d) = top (col (m ((c : Thread nD τ).loc main_arg0)) b d) :=
  (max_nested m c t h1 r d b hb).trans (top_blocks _ _ (ext_apply _))

/-- The running minimum: the column's minimum. -/
theorem min_entry :
    (outsAt0 m c t.val t.isLt).2.2.2.2 (ix2 r d) = bot (col (m ((c : Thread nD τ).loc main_arg0)) b d) :=
  (min_nested m c t h1 r d b hb).trans (bot_blocks _ _ (ext_apply _))

end Last

end Cert.KernelIdeal.Entry

end
-- ==== Proof.Out.lean ====
/-
  The kernel's result array.

  The last point t of a group writes an 8 × 640 block whose entry (r, 128·q + d) is statistic q of the accumulators at (r, d);
  by the previous module those are the statistics of column (8·(t/4) + r, ·, d) of the argument array in the first arrangement.
  That block is written back to rows 8·(t/4) … 8·(t/4) + 7 of the 64 × 640 result, the eight last points cover its 64 rows,
  and nothing else is written back: the result is the pooled array.
-/
import proofs.«172997_j57707180589696_2_alg».proof.Proof.Entry

set_option maxRecDepth 16384

noncomputable section

namespace Cert.KernelIdeal.Out

open Cert.KernelIdeal Cert.KernelIdeal.Gen Cert.KernelIdeal.Pieces Cert.KernelIdeal.Sweep Cert.KernelIdeal.Payloads Cert.KernelIdeal.Entry Cert.Pool
open Idealize.ShloMosaic Idealize.ShloMosaic.ValueIdx Idealize.ShloMosaic.TcCoe Idealize.SL.Sem
open Idealize.ShloMosaic.Pipeline (Dat)

/-- Every index of an 8 × 640 block is (r, 128·q + d) for one r, q, d. -/
theorem exists_outCol8 (j : (⟨2, ![8, 640]⟩ : Shape).Idx) :
    ∃ (r : Fin 8) (q : Fin 5) (d : Fin 128), j = ix2 r (outCol q d) := by
  have h := (j 1).isLt
  simp only [Matrix.cons_val_one, Matrix.cons_val_zero] at h
  refine ⟨j 0, ⟨(j 1).val / 128, by omega⟩, ⟨(j 1).val % 128, Nat.mod_lt _ (by norm_num)⟩, ?_⟩
  refine (eq_ix2 j).trans ?_
  congr 1
  exact Fin.ext (by show (j 1).val = 128 * ((j 1).val / 128) + (j 1).val % 128; omega)

/-! ## The five pieces read at an index: columns 128·q … 128·q + 127 hold piece q -/

theorem written_dev (s0 s1 s2 s3 : Vec Ideal S8x128 .f32) (r : Fin 8) (d : Fin 128) :
    View.canon (written s0 s1 s2 s3) (ix2 r (outCol 4 d)) = k0_pay2 (F := Ideal) s0 s1 (ix2 r d) := by
  have hd := d.isLt
  have e : (ix2 r (outCol 4 d) : S8x640.Idx) = (Rect.unit ![0, 512] ![8, 128] inb_S8x640_S8x128_0_512).emb (ix2 r d) := by
    funext a; apply Fin.ext
    match a with
    | ⟨0, _⟩ => show r.val = 0 + 1 * r.val; omega
    | ⟨1, _⟩ => show 128 * 4 + d.val = 512 + 1 * d.val; omega
  unfold written
  rw [e]
  exact View.canon_cons_emb _ _ _ _

theorem written_sum (s0 s1 s2 s3 : Vec Ideal S8x128 .f32) (r : Fin 8) (d : Fin 128) :
    View.canon (written s0 s1 s2 s3) (ix2 r (outCol 3 d)) = s0 (ix2 r d) := by
  have hd := d.isLt
  have e : (ix2 r (outCol 3 d) : S8x640.Idx) = (Rect.unit ![0, 384] ![8, 128] inb_S8x640_S8x128_0_384).emb (ix2 r d) := by
    funext a; apply Fin.ext
    match a with
    | ⟨0, _⟩ => show r.val = 0 + 1 * r.val; omega
    | ⟨1, _⟩ => show 128 * 3 + d.val = 384 + 1 * d.val; omega
  unfold written
  rw [View.canon_cons_of_not_mem _ _ (y := (ix2 r (outCol 3 d) : S8x640.Idx)) (by
    rw [Rect.mem_set_unit]; intro h
    have h1 : 512 ≤ 128 * 3 + d.val ∧ 128 * 3 + d.val < 512 + 128 := h 1
    omega)]
  rw [e]
  exact View.canon_cons_emb _ _ _ _

theorem written_min (s0 s1 s2 s3 : Vec Ideal S8x128 .f32) (r : Fin 8) (d : Fin 128) :
    View.canon (written s0 s1 s2 s3) (ix2 r (outCol 2 d)) = s3 (ix2 r d) := by
  have hd := d.isLt
  have e : (ix2 r (outCol 2 d) : S8x640.Idx) = (Rect.unit ![0, 256] ![8, 128] inb_S8x640_S8x128_0_256).emb (ix2 r d) := by
    funext a; apply Fin.ext
    match a with
    | ⟨0, _⟩ => show r.val = 0 + 1 * r.val; omega
    | ⟨1, _⟩ => show 128 * 2 + d.val = 256 + 1 * d.val; omega
  unfold written
  rw [View.canon_cons_of_not_mem _ _ (y := (ix2 r (outCol 2 d) : S8x640.Idx)) (by
    rw [Rect.mem_set_unit]; intro h
    have h1 : 512 ≤ 128 * 2 + d.val ∧ 128 * 2 + d.val < 512 + 128 := h 1
    omega)]
  rw [View.canon_cons_of_not_mem _ _ (y := (ix2 r (outCol 2 d) : S8x640.Idx)) (by
    rw [Rect.mem_set_unit]; intro h
    have h1 : 384 ≤ 128 * 2 + d.val ∧ 128 * 2 + d.val < 384 + 128 := h 1
    omega)]
  rw [e]
  exact View.canon_cons_emb _ _ _ _

theorem written_max (s0 s1 s2 s3 : Vec Ideal S8x128 .f32) (r : Fin 8) (d : Fin 128) :
    View.canon (written s0 s1 s2 s3) (ix2 r (outCol 1 d)) = s2 (ix2 r d) := by
  have hd := d.isLt
  have e : (ix2 r (outCol 1 d) : S8x640.Idx) = (Rect.unit ![0, 128] ![8, 128] inb_S8x640_S8x128_0_128).emb (ix2 r d) := by
    funext a; apply Fin.ext
    match a with
    | ⟨0, _⟩ => show r.val = 0 + 1 * r.val; omega
    | ⟨1, _⟩ => show 128 * 1 + d.val = 128 + 1 * d.val; omega
  unfold written
  rw [View.canon_cons_of_not_mem _ _ (y := (ix2 r (outCol 1 d) : S8x640.Idx)) (by
    rw [Rect.mem_set_unit]; intro h
    have h1 : 512 ≤ 128 * 1 + d.val ∧ 128 * 1 + d.val < 512 + 128 := h 1
    omega)]
  rw [View.canon_cons_of_not_mem _ _ (y := (ix2 r (outCol 1 d) : S8x640.Idx)) (by
    rw [Rect.mem_set_unit]; intro h
    have h1 : 384 ≤ 128 * 1 + d.val ∧ 128 * 1 + d.val < 384 + 128 := h 1
    omega)]
  rw [View.canon_cons_of_not_mem _ _ (y := (ix2 r (outCol 1 d) : S8x640.Idx)) (by
    rw [Rect.mem_set_unit]; intro h
    have h1 : 256 ≤ 128 * 1 + d.val ∧ 128 * 1 + d.val < 256 + 128 := h 1
    omega)]
  rw [e]
  exact View.canon_cons_emb _ _ _ _

theorem written_mean (s0 s1 s2 s3 : Vec Ideal S8x128 .f32) (r : Fin 8) (d : Fin 128) :
    View.canon (written s0 s1 s2 s3) (ix2 r (outCol 0 d)) = k0_pay1 (F := Ideal) s0 (ix2 r d) := by
  have hd := d.isLt
  have e : (ix2 r (outCol 0 d) : S8x640.Idx) = (Rect.unit ![0, 0] ![8, 128] inb_S8x640_S8x128_0_0).emb (ix2 r d) := by
    funext a; apply Fin.ext
    match a with
    | ⟨0, _⟩ => show r.val = 0 + 1 * r.val; omega
    | ⟨1, _⟩ => show 128 * 0 + d.val = 0 + 1 * d.val; omega
  unfold written
  rw [View.canon_cons_of_not_mem _ _ (y := (ix2 r (outCol 0 d) : S8x640.Idx)) (by
    rw [Rect.mem_set_unit]; intro h
    have h1 : 512 ≤ 128 * 0 + d.val ∧ 128 * 0 + d.val < 512 + 128 := h 1
    omega)]
  rw [View.canon_cons_of_not_mem _ _ (y := (ix2 r (outCol 0 d) : S8x640.Idx)) (by
    rw [Rect.mem_set_unit]; intro h
    have h1 : 384 ≤ 128 * 0 + d.val ∧ 128 * 0 + d.val < 384 + 128 := h 1
    omega)]
  rw [View.canon_cons_of_not_mem _ _ (y := (ix2 r (outCol 0 d) : S8x640.Idx)) (by
    rw [Rect.mem_set_unit]; intro h
    have h1 : 256 ≤ 128 * 0 + d.val ∧ 128 * 0 + d.val < 256 + 128 := h 1
    omega)]
  rw [View.canon_cons_of_not_mem _ _ (y := (ix2 r (outCol 0 d) : S8x640.Idx)) (by
    rw [Rect.mem_set_unit]; intro h
    have h1 : 128 ≤ 128 * 0 + d.val ∧ 128 * 0 + d.val < 128 + 128 := h 1
    omega)]
  rw [e]
  exact View.canon_cons_emb _ _ _ _

variable (m : (ℓ : Loc nD τ sig) → Buf (Elt Ideal) ℓ) (ρ : Dev nD → PrngReg)

/-! ## What a flushing point writes back -/

/-- Entry (r, 128·q + d) of the block the last point `t` of a group leaves is statistic q of column (8·(t/4) + r, ·, d). -/
theorem block_entry_stat (c : Dev nD) (t : Fin cfg0.N) (h1 : t.val % 4 = 3) (r : Fin 8) (q : Fin 5) (d : Fin 128) (b : Fin 64)
    (hb : b.val = t.val / 4 * 8 + r.val) :
    (outsAt0 m c t.val t.isLt).1 (ix2 r (outCol q d)) = statMul (col (m ((c : Thread nD τ).loc main_arg0)) b d) q := by
  rw [out_last m c t h1]
  match q with
  | 0 =>
    refine (written_mean _ _ _ _ r d).trans ?_
    show (outsAt0 m c t.val t.isLt).2.1 (ix2 r d) * invN = total (col (m ((c : Thread nD τ).loc main_arg0)) b d) * invN
    rw [sum_entry m c t h1 r d b hb]
  | 1 => exact (written_max _ _ _ _ r d).trans (max_entry m c t h1 r d b hb)
  | 2 => exact (written_min _ _ _ _ r d).trans (min_entry m c t h1 r d b hb)
  | 3 => exact (written_sum _ _ _ _ r d).trans (sum_entry m c t h1 r d b hb)
  | 4 =>
    refine (written_dev _ _ _ _ r d).trans ?_
    refine (dev_apply _ _ _).trans ?_
    rw [sum_entry m c t h1 r d b hb, sumsq_entry m c t h1 r d b hb]
    rfl

/-- So a flushing point writes back its block of the pooled array. -/
theorem flushed_eq (c : Dev nD) (t : Fin cfg0.N) (hf : (cfg0.win 1).flush t = true) :
    (dats m 0 c).flushed 1 t
      = ((cfg0.win 1).blk t).view.read (Elt Ideal) (pooledMul (m ((c : Thread nD τ).loc main_arg0)) : Buf (Elt Ideal) ((c : Thread nD τ).loc main_v0)) := by
  have h1 : t.val % 4 = 3 := (flush0_1 t).mp hf
  have hN : cfg0.N = 32 := N_0
  have ht := t.isLt
  obtain ⟨-, -, -, e3, e4⟩ := idx_facts t
  rw [Value.flushed1]
  funext j
  obtain ⟨r, q, d, rfl⟩ := exists_outCol8 j
  have hq := q.isLt
  have hd := d.isLt
  have hr := r.isLt
  show (outsAt0 m c t.val t.isLt).1 (ix2 r (outCol q d)) = pooledMul (m ((c : Thread nD τ).loc main_arg0)) (((cfg0.win 1).blk t).view.emb (ix2 r (outCol q d)))
  have he : ((cfg0.win 1).blk t).view.emb (ix2 r (outCol q d)) = ix2 (⟨t.val / 4 * 8 + r.val, by omega⟩ : Fin 64) (outCol q d) := by
    funext a; apply Fin.ext
    match a with
    | ⟨0, _⟩ => show win0_1.index t (0 : Fin 2) * 8 + 1 * r.val = t.val / 4 * 8 + r.val; omega
    | ⟨1, _⟩ => show win0_1.index t (1 : Fin 2) * 640 + 1 * (128 * q.val + d.val) = 128 * q.val + d.val; omega
  rw [he, pooledMul_apply]
  exact block_entry_stat m c t h1 r q d _ rfl

/-! ## The cover, and the run -/

/-- An index of the result is in point `t`'s block iff each coordinate is in the block's range on its axis. -/
theorem mem_blk (t : Fin cfg0.N) (i : S64x640.Idx) :
    i ∈ ((cfg0.win 1).blk t).view.set ↔ ∀ a : Fin 2, win0_1.index t a * S8x640.size a ≤ (i a).val ∧ (i a).val < win0_1.index t a * S8x640.size a + S8x640.size a := by
  show i ∈ ((View.whole main_v0).slice (win0_1.rect t)).set ↔ _
  rw [View.set_slice_whole, Rect.mem_set_unit]
  exact Iff.rfl

/-- Row i₀ of the result lies in the block of the last point of group i₀ / 8. -/
theorem cover (i : S64x640.Idx) : ∃ t : Fin cfg0.N, (cfg0.win 1).flush t = true ∧ i ∈ ((cfg0.win 1).blk t).view.set := by
  have hN : cfg0.N = 32 := N_0
  have h0 : (i 0).val < 64 := (i 0).isLt
  have h1 : (i 1).val < 640 := (i 1).isLt
  have hlt : 4 * ((i 0).val / 8) + 3 < cfg0.N := by omega
  obtain ⟨-, -, -, e3, e4⟩ := idx_facts ⟨4 * ((i 0).val / 8) + 3, hlt⟩
  have e3' : win0_1.index ⟨4 * ((i 0).val / 8) + 3, hlt⟩ (0 : Fin 2) = (4 * ((i 0).val / 8) + 3) / 4 := e3
  refine ⟨⟨4 * ((i 0).val / 8) + 3, hlt⟩, (flush0_1 _).mpr (by show (4 * ((i 0).val / 8) + 3) % 4 = 3; omega), ?_⟩
  rw [mem_blk]
  intro a
  match a with
  | ⟨0, _⟩ =>
    show win0_1.index ⟨4 * ((i 0).val / 8) + 3, hlt⟩ (0 : Fin 2) * 8 ≤ (i 0).val ∧ (i 0).val < win0_1.index ⟨4 * ((i 0).val / 8) + 3, hlt⟩ (0 : Fin 2) * 8 + 8
    omega
  | ⟨1, _⟩ =>
    show win0_1.index ⟨4 * ((i 0).val / 8) + 3, hlt⟩ (1 : Fin 2) * 640 ≤ (i 1).val ∧ (i 1).val < win0_1.index ⟨4 * ((i 0).val / 8) + 3, hlt⟩ (1 : Fin 2) * 640 + 640
    omega

/-- The result array after the run is the pooled array (first arrangement) of the argument array. -/
theorem final (c : Dev nD) : (dats m 0 c).arrAt 1 cfg0.N = (pooledMul (m ((c : Thread nD τ).loc main_arg0)) : Buf (Elt Ideal) ((c : Thread nD τ).loc main_v0)) :=
  (dats m 0 c).arrAt_eq_of_cover 1 _ (flushed_eq m c) cover

/-- The kernel's run: it terminates without a fault, the result is the pooled array, the argument is unchanged. -/
theorem run : θ_run defs (onTc (τ := τ) (main (F := Ideal))) ⟨m, fun _ => 0, ρ⟩ fun r => ∀ c : Dev nD,
      r.2.mem ((c : Thread nD τ).loc main_v0) = (pooledMul (m ((c : Thread nD τ).loc main_arg0)) : Buf (Elt Ideal) ((c : Thread nD τ).loc main_v0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Out

end
-- ==== Proof.RefRun.lean ====
/-
  The reference program's run, written out: @main with its three module-local functions unfolded at their
  calls is one straight line of thirty-six host operations; every weakly fair execution of it ends with the
  result buffer at ONE pure term of the argument array (`result`) and the argument unchanged.

  The term, for a 64 × 8192 × 128 array x: the concatenation along the second axis of
    the column sums divided by 8192,
    the column maxima (from −∞) and minima (from +∞),
    the column sums,
    and the square root of: the sum over the column of the squared deviations from (column sum / 8192),
      divided by (8192 − 0), where 8192 − 0 > 0 selects that quotient over a constant.
-/
import proofs.«172997_j57707180589696_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-! ## The value -/

section Value
variable (x : FVec Ideal S64x8192x128 .f32)

/-- The scalar constants: 0, 8192, and 8192 − (the integer 0 as a float). -/
def zero : FVec Ideal S_ .f32 := constant (F := Ideal) S_ .f32 0x00000000#32
def count : FVec Ideal S_ .f32 := constant (F := Ideal) S_ .f32 0x46000000#32
def norm : FVec Ideal S_ .f32 := subf count (sitofp (F := Ideal) .f32 (constantI S_ 32 0#32))

/-- Column sums, maxima and minima over the middle axis. -/
def sums : FVec Ideal S64x128 .f32 := Host.reduceAdd x zero reducesTo_S64x8192x128_S64x128_d1 h_S_
def tops : FVec Ideal S64x128 .f32 :=
  Host.reduce FloatOps.maximumf x (constant (F := Ideal) S_ .f32 0xFF800000#32) reducesTo_S64x8192x128_S64x128_d1 h_S_
def bots : FVec Ideal S64x128 .f32 :=
  Host.reduce FloatOps.minimumf x (constant (F := Ideal) S_ .f32 0x7F800000#32) reducesTo_S64x8192x128_S64x128_d1 h_S_

/-- The mean: sums / 8192. -/
def mean : FVec Ideal S64x128 .f32 := Host.divf (sums x) (broadcastInDim S64x128 ![] bcast_S_S64x128 count)

/-- The mean again, with a unit middle axis, spread over the whole array. -/
def meanAll : FVec Ideal S64x8192x128 .f32 :=
  broadcastInDim S64x8192x128 ![0, 1, 2] bcast_S64x1x128_S64x8192x128_0_1_2
    (Host.divf (broadcastInDim S64x1x128 ![0, 2] bcast_S64x128_S64x1x128_0_2 (sums x))
      (broadcastInDim S64x1x128 ![] bcast_S_S64x1x128 count))

/-- Deviations from the mean, and their squares. -/
def dev : FVec Ideal S64x8192x128 .f32 := subf x (meanAll x)
def devSq : FVec Ideal S64x8192x128 .f32 := mulf (dev x) (dev x)

/-- The variance: the squared deviations summed over the column, over the normaliser — selected when the normaliser is
    positive, a constant otherwise. -/
def quot : FVec Ideal S64x128 .f32 :=
  Host.divf (Host.reduceAdd (devSq x) zero reducesTo_S64x8192x128_S64x128_d1 h_S_) (broadcastInDim S64x128 ![] bcast_S_S64x128 norm)
def variance : FVec Ideal S64x128 .f32 :=
  select (broadcastInDim S64x128 ![] bcast_S_S64x128 (cmpf .ogt norm zero)) (quot x)
    (broadcastInDim S64x128 ![] bcast_S_S64x128 (id (constant (F := Ideal) S_ .f32 0x7FC00000#32)))
def deviation : FVec Ideal S64x128 .f32 := Host.sqrt (variance x)

/-- The reference's value: the five 64 × 128 statistics side by side. -/
def result : FVec Ideal S64x640 .f32 :=
  concatenate S64x640 1 [⟨S64x128, mean x⟩, ⟨S64x128, tops x⟩, ⟨S64x128, bots x⟩, ⟨S64x128, sums x⟩, ⟨S64x128, deviation x⟩]
    concatenates_S64x128_S64x128_S64x128_S64x128_S64x128_S64x640_d1

end Value

/-! ## The run -/

variable {F : FTy → Type} [FloatOps F]

/-- @main's thirty-six operations, in order: its own twelve, then those of the function it calls (the variance: twenty,
    then the three of the selection it calls in turn), the square root, and the concatenation. -/
abbrev ops : List (HloOp τ sig (Elt F)) :=
  [ nullary main_cst (constant S_ .f32 0x00000000#32),
    binary main_arg0 main_cst main_v0 ((fun x v => Host.reduceAdd x v reducesTo_S64x8192x128_S64x128_d1 h_S_) : (⟨S64x8192x128, .f32⟩ : BufTy).Contents (Elt F) → (⟨S_, .f32⟩ : BufTy).Contents (Elt F) → (⟨S64x128, .f32⟩ : BufTy).Contents (Elt F)),
    nullary main_cst_0 (constant S_ .f32 0x46000000#32),
    unary main_cst_0 main_v1 (broadcastInDim S64x128 ![] bcast_S_S64x128 : (⟨S_, .f32⟩ : BufTy).Contents (Elt F) → (⟨S64x128, .f32⟩ : BufTy).Contents (Elt F)),
    binary main_v0 main_v1 main_v2 (Host.divf : (⟨S64x128, .f32⟩ : BufTy).Contents (Elt F) → (⟨S64x128, .f32⟩ : BufTy).Contents (Elt F) → (⟨S64x128, .f32⟩ : BufTy).Contents (Elt F)),
    nullary main_cst_1 (constant S_ .f32 0xFF800000#32),
    binary main_arg0 main_cst_1 main_v3 ((fun x v => Host.reduce FloatOps.maximumf x v reducesTo_S64x8192x128_S64x128_d1 h_S_) : (⟨S64x8192x128, .f32⟩ : BufTy).Contents (Elt F) → (⟨S_, .f32⟩ : BufTy).Contents (Elt F) → (⟨S64x128, .f32⟩ : BufTy).Contents (Elt F)),
    nullary main_cst_2 (constant S_ .f32 0x7F800000#32),
    binary main_arg0 main_cst_2 main_v4 ((fun x v => Host.reduce FloatOps.minimumf x v reducesTo_S64x8192x128_S64x128_d1 h_S_) : (⟨S64x8192x128, .f32⟩ : BufTy).Contents (Elt F) → (⟨S_, .f32⟩ : BufTy).Contents (Elt F) → (⟨S64x128, .f32⟩ : BufTy).Contents (Elt F)),
    nullary main_cst_3 (constant S_ .f32 0x00000000#32),
    binary main_arg0 main_cst_3 main_v5 ((fun x v => Host.reduceAdd x v reducesTo_S64x8192x128_S64x128_d1 h_S_) : (⟨S64x8192x128, .f32⟩ : BufTy).Contents (Elt F) → (⟨S_, .f32⟩ : BufTy).Contents (Elt F) → (⟨S64x128, .f32⟩ : BufTy).Contents (Elt F)),
    nullary main_c (constantI S_ 32 0#32),
    TRef.nullary main_call0.call0.cst (constant S_ .f32 0x00000000#32),
    TRef.binary (.of main_arg0) main_call0.call0.cst main_call0.call0.v0 (fun x v => Host.reduceAdd x v reducesTo_S64x8192x128_S64x128_d1 h_S_),
    TRef.unary main_call0.call0.v0 main_call0.call0.v1 (broadcastInDim S64x1x128 ![0, 2] bcast_S64x128_S64x1x128_0_2),
    TRef.nullary main_call0.call0.cst_0 (constant S_ .f32 0x46000000#32),
    TRef.unary main_call0.call0.cst_0 main_call0.call0.v2 (broadcastInDim S64x1x128 ![] bcast_S_S64x1x128),
    TRef.binary main_call0.call0.v1 main_call0.call0.v2 main_call0.call0.v3 Host.divf,
    TRef.unary main_call0.call0.v3 main_call0.call0.v4 (broadcastInDim S64x8192x128 ![0, 1, 2] bcast_S64x1x128_S64x8192x128_0_1_2),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x46000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S64x8192x128_S64x128_d1 h_S_),
    TRef.unary main_call0.call0.v8 main_call0.call0.v10 (broadcastInDim S64x128 ![] bcast_S_S64x128),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S64x128 ![] bcast_S_S64x128),
    TRef.ternary main_call0.call0.v12 main_call0.call0.v11 main_call0.call0.call0.v1 main_call0.call0.call0.v2 (fun p a b => select (broadcastInDim S64x128 ![] bcast_S_S64x128 p) a b),
    TRef.unary main_call0.call0.call0.v2 main_call0.v1 Host.sqrt,
    nary ![main_v2, main_v3, main_v4, main_v5, main_v6] main_v7 (fun u => concatenate S64x640 1 [⟨S64x128, u 0⟩, ⟨S64x128, u 1⟩, ⟨S64x128, u 2⟩, ⟨S64x128, u 3⟩, ⟨S64x128, u 4⟩] concatenates_S64x128_S64x128_S64x128_S64x128_S64x128_S64x640_d1) ]

-- thirty-six binds re-associated
set_option maxRecDepth 1024 in
/-- @main is that straight line: the three functions' definitions unfolded at their calls and the records at their
    fields, both sides are one chain of steps once sequencing is reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    binary_bufs_sub .., nullary_bufs_sub .., binary_bufs_sub .., nullary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., nary_bufs_sub ..⟩

attribute [local irreducible] Host.reduce Host.reduceAdd concatenate broadcastInDim in
set_option maxRecDepth 8192 in
/-- The fold of the thirty-six operations at the result buffer is `result` of the argument's contents, by computation:
    each operation's result decides whether the buffer read is the one it writes, and the typed references' casts are
    the identity at these literal references. The reductions, the broadcasts and the concatenation stay folded
    meanwhile (the equation never looks inside them). -/
theorem out_eq (V : Valuation τ sig (Elt Ideal)) :
    after (ops (F := Ideal)) V (main_v7 : DevRef τ sig) = result (V (main_arg0 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

/-- From any memory with zero counters: every weakly fair execution of @main terminates with the result buffer at
    `result` of the argument array's launch contents, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = result (m ((c.tc : Thread nD τ).loc main_arg0))
      ∧ r.2.mem ((c.tc : Thread nD τ).loc main_arg0) = m ((c.tc : Thread nD τ).loc main_arg0)) :=
  (θ_run defs _ _).mono (fun _ h c => ⟨(h c main_v7).trans (out_eq _), (h c main_arg0).trans (arg0_eq _)⟩)
    (run_seq scopedRefs_eq scopedSems_eq defs main (fun _ => ops) main_eq (fun _ => ops_sub) m ρ)

end Cert.ReferenceIdeal.RefValue

end
-- ==== Proof.RefRead.lean ====
/-
  The reference's value read at an index: entry (b, 128·q + d) of the concatenation is piece q at (b, d), and each
  piece at (b, d) is the matching statistic of the column k ↦ x (b, k, d) in the arrangement that divides by 8192 and
  takes the variance as the mean squared deviation. No finiteness is needed: the two sides are the same extended-real
  expression once the reductions are read as sums and folds over the column.
-/
import proofs.«172997_j57707180589696_2_alg».proof.Proof.RefRun
import proofs.«172997_j57707180589696_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx Cert.Pool

/-- Piece q of the concatenation. -/
def piece (x : FVec Ideal S64x8192x128 .f32) : Fin 5 → FVec Ideal S64x128 .f32
  | 0 => mean x | 1 => tops x | 2 => bots x | 3 => sums x | 4 => deviation x

/-- Entry (b, 128·q + d) of the concatenation is piece q at (b, d). -/
theorem result_apply (x : FVec Ideal S64x8192x128 .f32) (b : Fin 64) (q : Fin 5) (d : Fin 128) :
    result x (ix2 b (outCol q d)) = piece x q (ix2 b d) := by
  unfold result
  have hi : ∀ (q : Fin 5) (b' : Fin S64x128.rank), b'.cast (rfl : S64x128.rank = S64x640.rank) ≠ (1 : Fin 2) →
      ((ix2 b d : S64x128.Idx) b').val = ((ix2 b (outCol q d) : S64x640.Idx) (b'.cast rfl)).val := by
    intro q b' hb
    fin_cases b'
    · rfl
    · exact absurd rfl hb
  match q with
  | ⟨0, _⟩ =>
    refine concatenate_apply_piece (t := S64x640) (1 : Fin 2) _ _ _ 0 ?_ S64x128 (mean x) ?_ rfl 0 ?_ (ix2 b d) ?_ ?_
    · show (0 : Nat) < 5; omega
    · rfl
    · rfl
    · exact hi _
    · rfl
  | ⟨1, _⟩ =>
    refine concatenate_apply_piece (t := S64x640) (1 : Fin 2) _ _ _ 1 ?_ S64x128 (tops x) ?_ rfl 128 ?_ (ix2 b d) ?_ ?_
    · show (1 : Nat) < 5; omega
    · rfl
    · rfl
    · exact hi _
    · rfl
  | ⟨2, _⟩ =>
    refine concatenate_apply_piece (t := S64x640) (1 : Fin 2) _ _ _ 2 ?_ S64x128 (bots x) ?_ rfl 256 ?_ (ix2 b d) ?_ ?_
    · show (2 : Nat) < 5; omega
    · rfl
    · rfl
    · exact hi _
    · rfl
  | ⟨3, _⟩ =>
    refine concatenate_apply_piece (t := S64x640) (1 : Fin 2) _ _ _ 3 ?_ S64x128 (sums x) ?_ rfl 384 ?_ (ix2 b d) ?_ ?_
    · show (3 : Nat) < 5; omega
    · rfl
    · rfl
    · exact hi _
    · rfl
  | ⟨4, _⟩ =>
    refine concatenate_apply_piece (t := S64x640) (1 : Fin 2) _ _ _ 4 ?_ S64x128 (deviation x) ?_ rfl 512 ?_ (ix2 b d) ?_ ?_
    · show (4 : Nat) < 5; omega
    · rfl
    · rfl
    · exact hi _
    · rfl
  | ⟨n + 5, h⟩ => exact absurd h (by omega)

/-! ## The pieces at an index -/

/-- The reduced shape relation as the witness that names the inserted index. -/
theorem red : S64x8192x128.Reduces [1] S64x128 := by decide

/-- (b, d) with k inserted on the middle axis is (b, k, d). -/
theorem lift_eq (b : Fin 64) (d : Fin 128) (k : Fin 8192) :
    red.lift (ix2 b d : S64x128.Idx) k = (ix3 b k d : S64x8192x128.Idx) := by
  funext a
  match a with
  | ⟨0, _⟩ => exact Fin.ext rfl
  | ⟨1, _⟩ => exact Fin.ext rfl
  | ⟨2, _⟩ => exact Fin.ext rfl

/-- The scalar constants: 0 is the extended real 0, the count and the normaliser are both the pattern of 8192
    (the normaliser is 8192 minus the integer 0 as a real). -/
theorem zero_apply (k : S_.Idx) : zero k = 0 := by
  unfold zero; rw [constant_apply, Ideal.ofBits_zero_f32]
theorem count_apply (k : S_.Idx) : count k = cntN := rfl
theorem norm_apply (k : S_.Idx) : norm k = cntN := by
  show cntN - (((0#32 : BitVec 32).toInt : ℝ) : EReal) = cntN
  simp

/-- The pattern 0x46000000 is 8192, which is positive. -/
theorem cntN_eq : cntN = ((8192 : ℝ) : EReal) := by
  simp [Ideal.ofBits, Ideal.ieee, -EReal.coe_mul]; norm_num
theorem cntN_pos : (0 : EReal) < cntN := by
  rw [cntN_eq]; exact_mod_cast (by norm_num : (0 : ℝ) < 8192)

/-- A sum over the middle axis from 0, at (b, d), is the sum over the column. -/
theorem reduceAdd_apply (y : FVec Ideal S64x8192x128 .f32) (b : Fin 64) (d : Fin 128) :
    Host.reduceAdd y zero reducesTo_S64x8192x128_S64x128_d1 h_S_ (ix2 b d) = ∑ k : Fin 8192, y (ix3 b k d) := by
  unfold Host.reduceAdd
  rw [Ideal.hostReduceAdd_def, Ideal.hostReduceAdd_single _ red, zero_apply, zero_add]
  exact Finset.sum_congr rfl fun k _ => congrArg y (lift_eq b d k)

theorem sums_apply (x : FVec Ideal S64x8192x128 .f32) (b : Fin 64) (d : Fin 128) :
    sums x (ix2 b d) = total (col x b d) := reduceAdd_apply x b d

theorem tops_apply (x : FVec Ideal S64x8192x128 .f32) (b : Fin 64) (d : Fin 128) :
    tops x (ix2 b d) = top (col x b d) := by
  unfold tops
  rw [Host.reduce_eq_fold_single _ _ _ _ red]
  have : x ∘ red.lift (ix2 b d : S64x128.Idx) = col x b d := funext fun k => congrArg x (lift_eq b d k)
  rw [this]; rfl

theorem bots_apply (x : FVec Ideal S64x8192x128 .f32) (b : Fin 64) (d : Fin 128) :
    bots x (ix2 b d) = bot (col x b d) := by
  unfold bots
  rw [Host.reduce_eq_fold_single _ _ _ _ red]
  have : x ∘ red.lift (ix2 b d : S64x128.Idx) = col x b d := funext fun k => congrArg x (lift_eq b d k)
  rw [this]; rfl

theorem mean_apply (x : FVec Ideal S64x8192x128 .f32) (b : Fin 64) (d : Fin 128) :
    mean x (ix2 b d) = meanDiv (col x b d) := by
  show Ideal.div (sums x (ix2 b d)) cntN = _
  rw [sums_apply]; rfl

/-- The mean spread over the whole array, at (b, k, d): the column's mean. -/
theorem meanAll_apply (x : FVec Ideal S64x8192x128 .f32) (b : Fin 64) (k : Fin 8192) (d : Fin 128) :
    meanAll x (ix3 b k d) = meanDiv (col x b d) := by
  unfold meanAll
  rw [broadcastInDim_apply _ _ _ (ix3 b k d : S64x8192x128.Idx) (ix3 b 0 d : S64x1x128.Idx)
    (fun a => match a with | ⟨0, _⟩ => rfl | ⟨1, _⟩ => rfl | ⟨2, _⟩ => rfl)]
  show Ideal.div (broadcastInDim S64x1x128 ![0, 2] bcast_S64x128_S64x1x128_0_2 (sums x) (ix3 b 0 d)) cntN = _
  rw [broadcastInDim_apply _ _ (sums x) (ix3 b 0 d : S64x1x128.Idx) (ix2 b d : S64x128.Idx)
    (fun a => match a with | ⟨0, _⟩ => rfl | ⟨1, _⟩ => rfl), sums_apply]
  rfl

theorem devSq_apply (x : FVec Ideal S64x8192x128 .f32) (b : Fin 64) (k : Fin 8192) (d : Fin 128) :
    devSq x (ix3 b k d) = (col x b d k - meanDiv (col x b d)) * (col x b d k - meanDiv (col x b d)) := by
  show (x (ix3 b k d) - meanAll x (ix3 b k d)) * (x (ix3 b k d) - meanAll x (ix3 b k d)) = _
  rw [meanAll_apply]; rfl

theorem quot_apply (x : FVec Ideal S64x8192x128 .f32) (b : Fin 64) (d : Fin 128) :
    quot x (ix2 b d)
      = Ideal.div (∑ k, (col x b d k - meanDiv (col x b d)) * (col x b d k - meanDiv (col x b d))) cntN := by
  show Ideal.div (Host.reduceAdd (devSq x) zero reducesTo_S64x8192x128_S64x128_d1 h_S_ (ix2 b d)) (norm _) = _
  rw [reduceAdd_apply, norm_apply]
  exact congrArg (Ideal.div · cntN) (Finset.sum_congr rfl fun k _ => devSq_apply x b k d)

/-- The normaliser is positive, so the selection takes the quotient. -/
theorem variance_apply (x : FVec Ideal S64x8192x128 .f32) (b : Fin 64) (d : Fin 128) :
    variance x (ix2 b d) = quot x (ix2 b d) := by
  show Scalar.select (Ideal.cmp .ogt (norm _) (zero _)) (quot x (ix2 b d)) _ = _
  rw [norm_apply, zero_apply]
  have : Ideal.cmp .ogt cntN 0 = 1#1 := by
    unfold Ideal.cmp
    simp only [decide_eq_true cntN_pos]; rfl
  rw [this, select_one]

theorem deviation_apply (x : FVec Ideal S64x8192x128 .f32) (b : Fin 64) (d : Fin 128) :
    deviation x (ix2 b d) = devDiv (col x b d) := by
  show Ideal.sqrt (variance x (ix2 b d)) = _
  rw [variance_apply, quot_apply]; rfl

/-- Each piece at (b, d) is the matching statistic of the column. -/
theorem piece_apply (x : FVec Ideal S64x8192x128 .f32) (b : Fin 64) (q : Fin 5) (d : Fin 128) :
    piece x q (ix2 b d) = statDiv (col x b d) q :=
  match q with
  | ⟨0, _⟩ => mean_apply x b d
  | ⟨1, _⟩ => tops_apply x b d
  | ⟨2, _⟩ => bots_apply x b d
  | ⟨3, _⟩ => sums_apply x b d
  | ⟨4, _⟩ => deviation_apply x b d
  | ⟨n + 5, h⟩ => absurd h (by omega)

/-- The reference's value is the pooled array in the arrangement that divides. -/
theorem result_eq_pooledDiv (x : FVec Ideal S64x8192x128 .f32) : result x = pooledDiv x := by
  funext o
  obtain ⟨b, q, d, rfl⟩ := exists_outCol o
  rw [pooledDiv_apply, result_apply, piece_apply]

end Cert.ReferenceIdeal.RefValue

end
-- ==== Proof.Algebra.lean ====
/-
  The two arrangements of the pooled statistics agree on every column of real numbers.

  The bit patterns the programs spell denote 2⁻¹³, 8192, −∞ and +∞. Dividing an extended real by the real
  8192 is multiplying it by 2⁻¹³, so the two means agree on EVERY column. For a column `v` of reals with
  `S = Σ v`, `Q = Σ v²`, `N = 8192` and `m = S / N`,

      (1/N) Σ (v k − m)²  =  Q/N − m²,

  and the left side is a sum of squares times a positive number, hence `≥ 0`: the clamp `max · 0` of the first
  arrangement is the identity there and both deviations are the square root of the same real. The variance
  law needs finiteness (the extended reals are not distributive at the infinities), which is why it is stated
  over a real column.
-/
import proofs.«172997_j57707180589696_2_alg».proof.Proof.Spec
import Mathlib.Tactic.Ring
import Mathlib.Tactic.Linarith
import Mathlib.Algebra.BigOperators.Ring.Finset
import Mathlib.Algebra.Order.BigOperators.Ring.Finset

noncomputable section

namespace Cert.Pool

open Idealize.ShloMosaic

/-! ### The constants -/

/-- The pattern `0x39000000` (exponent field 114 = 127 − 13, zero fraction) denotes `2⁻¹³ = 1/8192`. -/
theorem invN_eq : invN = (((1 : ℝ) / 8192 : ℝ) : EReal) := by
  simp [invN, Ideal.ofBits, Ideal.ieee, -EReal.coe_mul]; norm_num

/-- The pattern `0x46000000` (exponent field 140 = 127 + 13, zero fraction) denotes `2¹³ = 8192`. -/
theorem cntN_eq : cntN = ((8192 : ℝ) : EReal) := by
  simp [cntN, Ideal.ofBits, Ideal.ieee, -EReal.coe_mul]; norm_num

/-- Sign bit set, exponent field all ones, zero fraction: `−∞`, the bottom of the extended reals. -/
theorem ofBits_negInf : Ideal.ofBits .f32 0xFF800000#32 = ⊥ := by
  simp [Ideal.ofBits, Ideal.ieee]

/-- Sign bit clear, exponent field all ones, zero fraction: `+∞`, the top of the extended reals. -/
theorem ofBits_posInf : Ideal.ofBits .f32 0x7F800000#32 = ⊤ := by
  simp [Ideal.ofBits, Ideal.ieee]

/-! ### The mean -/

/-- The total times `2⁻¹³` is the total divided by `8192`, for every column: division by a nonzero real is
    multiplication by its reciprocal on all of the extended reals. -/
theorem meanMul_eq_meanDiv (f : Fin 8192 → EReal) : meanMul f = meanDiv f := by
  rw [meanMul, meanDiv, invN_eq, cntN_eq, Ideal.div_coe (by norm_num)]

/-! ### The deviation -/

/-- The inclusion of the reals in the extended reals commutes with finite sums. -/
theorem coe_finset_sum {ι : Type*} (s : Finset ι) (g : ι → ℝ) :
    ((∑ k ∈ s, g k : ℝ) : EReal) = ∑ k ∈ s, ((g k : ℝ) : EReal) := by
  classical
  induction s using Finset.induction_on with
  | empty => simp
  | insert a s ha ih => rw [Finset.sum_insert ha, Finset.sum_insert ha, EReal.coe_add, ih]

/-- With `m = S/N`: `Σ (v k − m)² = Q − 2 m S + N m² = Q − N m²`, so the mean squared deviation is the mean
    of the squares minus the square of the mean. -/
theorem meanSqDev_eq (v : Fin 8192 → ℝ) (m : ℝ) (hm : m = (∑ j, v j) * (1 / 8192)) :
    (∑ k, (v k - m) * (v k - m)) * (1 / 8192) = (∑ k, v k * v k) * (1 / 8192) - m * m := by
  have h : ∀ k, (v k - m) * (v k - m) = v k * v k - 2 * m * v k + m * m := fun k => by ring
  simp only [h]
  rw [Finset.sum_add_distrib, Finset.sum_sub_distrib, ← Finset.mul_sum, Finset.sum_const,
    Finset.card_univ, Fintype.card_fin, nsmul_eq_mul]
  have hS : (∑ j, v j) = m * 8192 := by rw [hm]; ring
  rw [hS]; push_cast; ring

/-- A sum of squares times a positive number is nonnegative. -/
theorem meanSqDev_nonneg (v : Fin 8192 → ℝ) (m : ℝ) :
    0 ≤ (∑ k, (v k - m) * (v k - m)) * (1 / 8192) :=
  mul_nonneg (Finset.sum_nonneg fun k _ => mul_self_nonneg _) (by norm_num)

/-- On a column of reals both deviations are `√(Q/N − (S/N)²)`: every sum, product and difference is one of
    reals, the two variances are the two sides of `meanSqDev_eq`, and the clamp at zero is the identity by
    `meanSqDev_nonneg`. -/
theorem devMul_eq_devDiv (v : Fin 8192 → ℝ) :
    devMul (fun k => ((v k : ℝ) : EReal)) = devDiv (fun k => ((v k : ℝ) : EReal)) := by
  have hmul : meanMul (fun k => ((v k : ℝ) : EReal)) = (((∑ j, v j) * (1 / 8192) : ℝ) : EReal) := by
    rw [meanMul, total, invN_eq, ← coe_finset_sum, ← EReal.coe_mul]
  have hdiv : meanDiv (fun k => ((v k : ℝ) : EReal)) = (((∑ j, v j) * (1 / 8192) : ℝ) : EReal) := by
    rw [← meanMul_eq_meanDiv, hmul]
  have hvar := meanSqDev_eq v _ rfl
  have hnn := meanSqDev_nonneg v ((∑ j, v j) * (1 / 8192))
  rw [devMul, devDiv, hmul, hdiv, totalSq, invN_eq, cntN_eq, Ideal.div_coe (by norm_num)]
  simp only [← EReal.coe_sub, ← EReal.coe_mul, ← coe_finset_sum]
  rw [hvar] at hnn ⊢
  rw [max_eq_left (EReal.coe_nonneg.mpr hnn)]

/-! ### All five statistics -/

/-- On a column of reals the five statistics of the two arrangements agree: maximum, minimum and total are
    the same expression; the mean and the deviation are the two laws above. -/
theorem statMul_eq_statDiv (v : Fin 8192 → ℝ) (q : Fin 5) :
    statMul (fun k => ((v k : ℝ) : EReal)) q = statDiv (fun k => ((v k : ℝ) : EReal)) q := by
  fin_cases q
  · exact meanMul_eq_meanDiv _
  · rfl
  · rfl
  · rfl
  · exact devMul_eq_devDiv v

end Cert.Pool

end
-- ==== Proof.Finite.lean ====
/-
  The precondition, read back: an array of which "every |x i| < +∞" evaluates to true holds a real number at every index.
-/
import proofs.«172997_j57707180589696_2_alg».proof.Pre_finite_inputs
import proofs.«172997_j57707180589696_2_alg».proof.Proof.Gen.Pre_finite_inputs
import proofs.«172997_j57707180589696_2_alg».proof.Proof.Algebra
import Idealize.ShloMosaic.Lib.ReduceAll
import Idealize.ShloMosaic.Lib.ValueIdx
import Idealize.ShloMosaic.PureOps.Ideal.Laws

noncomputable section

namespace Cert.Pool

open Idealize.ShloMosaic

/-- The shape of a scalar has one index. -/
instance : Subsingleton Cert.Pre_finite_inputs.S_.Idx := ⟨fun a b => funext fun d => d.elim0⟩

/-- |x| < +∞ on the extended reals means x is a real number. -/
theorem real_of_abs_lt_top (x : EReal) (h : max x (-x) < ⊤) : ∃ v : ℝ, x = (v : EReal) := by
  induction x using EReal.rec with
  | bot => simp at h
  | coe v => exact ⟨v, rfl⟩
  | top => simp at h

/-- Every entry of an array satisfying the precondition is a real number. -/
theorem real_of_pre (x : FVec Ideal Cert.Pre_finite_inputs.S64x8192x128 .f32)
    (h : Cert.Pre_finite_inputs.fn (F := Ideal) x = fun _ => 1#1) (i : Cert.Pre_finite_inputs.S64x8192x128.Idx) :
    ∃ v : ℝ, x i = (v : EReal) := by
  have h0 := congrFun h ValueIdx.ix0
  dsimp only [Cert.Pre_finite_inputs.fn] at h0
  have hi := Host.reduce_andi_all _ _ _ _ ValueIdx.ix0 h0 i
  have hlt : max (x i) (-(x i)) < Ideal.ofBits .f32 0x7F800000#32 := by
    by_contra hn
    have : Ideal.cmp .olt (max (x i) (-(x i))) (Ideal.ofBits .f32 0x7F800000#32) = 0#1 := by
      unfold Ideal.cmp; simp [hn]
    have hi' : Ideal.cmp .olt (max (x i) (-(x i))) (Ideal.ofBits .f32 0x7F800000#32) = 1#1 := hi
    rw [this] at hi'
    exact absurd hi' (by decide)
  rw [ofBits_posInf] at hlt
  exact real_of_abs_lt_top _ hlt

end Cert.Pool

end
-- ==== Proof.lean ====
/-
  Pooling a 64 × 8192 × 128 array over its middle axis: for every row b and every d < 128 the mean, the maximum, the minimum,
  the sum and the population standard deviation of the 8192 numbers x(b, ·, d), written side by side into a 64 × 640 array.

  The kernel sweeps each group of eight rows in four steps of 2048 positions, keeping a running sum, sum of squares,
  maximum and minimum, and at the last step takes the mean as sum · 2⁻¹³ and the deviation as √max(sumsq · 2⁻¹³ − mean², 0).
  The reference takes each statistic of the whole column at once, the mean as sum / 8192 and the deviation as the root of
  the mean squared distance from that mean. On the extended reals:
    · four consecutive blocks of 2048 make the column, and +, max and min are commutative and associative, so the
      kernel's running values at its last step are the column's sum, sum of squares, maximum and minimum (no finiteness needed);
    · 2⁻¹³ is exactly 1/8192, so the two means agree on every column;
    · Σ(x − μ)²/N = Σx²/N − μ² ≥ 0 for real x, so the two deviations agree on a column of real numbers — this is where the
      precondition (every input finite) is used: the identity needs distributivity, which fails at an infinity.
  Both programs terminate without a fault and leave their argument unchanged; the idealization rewrote nothing.
-/
import proofs.«172997_j57707180589696_2_alg».proof.Defs
import proofs.«172997_j57707180589696_2_alg».proof.Proof.Gen.Kernel
import proofs.«172997_j57707180589696_2_alg».proof.Proof.Gen.Kernel.Skeleton
import proofs.«172997_j57707180589696_2_alg».proof.Proof.Gen.Kernel.Launch
import proofs.«172997_j57707180589696_2_alg».proof.Proof.Gen.Kernel.Points
import proofs.«172997_j57707180589696_2_alg».proof.Proof.Gen.Kernel.Frame
import proofs.«172997_j57707180589696_2_alg».proof.Proof.Gen.KernelIdeal
import proofs.«172997_j57707180589696_2_alg».proof.Proof.Gen.KernelIdeal.Skeleton
import proofs.«172997_j57707180589696_2_alg».proof.Proof.Gen.KernelIdeal.Launch
import proofs.«172997_j57707180589696_2_alg».proof.Proof.Gen.KernelIdeal.Points
import proofs.«172997_j57707180589696_2_alg».proof.Proof.Gen.KernelIdeal.Frame
import proofs.«172997_j57707180589696_2_alg».proof.Proof.Gen.KernelIdeal.Value
import proofs.«172997_j57707180589696_2_alg».proof.Proof.Gen.ReferenceIdeal
import proofs.«172997_j57707180589696_2_alg».proof.Proof.Gen.Pre_finite_inputs
import Idealize.ShloMosaic.Adequacy
import Idealize.ShloMosaic.Init
import proofs.«172997_j57707180589696_2_alg».proof.Proof.Out
import proofs.«172997_j57707180589696_2_alg».proof.Proof.RefRead
import proofs.«172997_j57707180589696_2_alg».proof.Proof.Finite

noncomputable section

namespace Cert.Proof

open Idealize.ShloMosaic Idealize.ShloMosaic.ValueIdx Idealize.SL.Sem Cert.Pool

/-- On an array of real numbers the two arrangements of the pooled array agree, entry by entry. -/
theorem pooledDiv_eq_pooledMul (x : (⟨3, ![64, 8192, 128]⟩ : Shape).Idx → EReal) (hx : ∀ i, ∃ v : ℝ, x i = (v : EReal)) :
    pooledDiv x = pooledMul x := by
  funext o
  obtain ⟨b, q, d, rfl⟩ := exists_outCol o
  rw [pooledDiv_apply, pooledMul_apply]
  choose v hv using hx
  have e : col x b d = fun k => ((v (ix3 b k d) : ℝ) : EReal) := funext fun k => hv _
  rw [e]
  exact (statMul_eq_statDiv _ q).symm

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with the pooled array of the (finite) argument: the kernel in the first arrangement, the reference in
    the second, which agree on real numbers. -/
theorem algebraic : Cert.algebraic_KernelIdeal_ReferenceIdeal := by
  intro m ρ m' ρ' hpre hagree
  refine ⟨fun c => pooledMul (m ((c.tc : Thread Cert.KernelIdeal.nD Cert.KernelIdeal.τ).loc Cert.KernelIdeal.main_arg0)),
    Cert.KernelIdeal.Out.run m ρ, ?_⟩
  refine (θ_run Cert.ReferenceIdeal.defs _ _).mono (fun _ h c => ⟨(h c).1.trans ?_, (h c).2⟩)
    (Cert.ReferenceIdeal.RefValue.run m' ρ')
  rw [Cert.ReferenceIdeal.RefValue.result_eq_pooledDiv, hagree c]
  exact pooledDiv_eq_pooledMul _ (real_of_pre _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
